-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_arg12 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  main_v63

def fn_part2 {F : FTy → Type} [FloatOps F] (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x128 : Shape := ⟨2, ![200, 128]⟩
abbrev S200x10000 : Shape := ⟨2, ![200, 10000]⟩
abbrev S200 : Shape := ⟨1, ![200]⟩
abbrev S200x1 : Shape := ⟨2, ![200, 1]⟩

abbrev nBuf : Space → Nat
  | .hbm => 23
  | .vmem => 56
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .local _ .vmem, ⟨0, _⟩ => ⟨S200x128, .f32⟩
  | .local _ .vmem, ⟨1, _⟩ => ⟨S200x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S200x128, .f32⟩
  | .local _ .vmem, ⟨6, _⟩ => ⟨S200x128, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S200x128, .f32⟩
  | .local _ .vmem, ⟨11, _⟩ => ⟨S200x10000, .f32⟩
  | .local _ .vmem, ⟨12, _⟩ => ⟨S200x10000, .f32⟩
  | .local _ .vmem, ⟨13, _⟩ => ⟨S200x10000, .f32⟩
  | .local _ .vmem, ⟨14, _⟩ => ⟨S200x10000, .f32⟩
  | .local _ .vmem, ⟨15, _⟩ => ⟨S10000x128, .f32⟩
  | .local _ .vmem, ⟨16, _⟩ => ⟨S10000x128, .f32⟩
  | .local _ .vmem, ⟨17, _⟩ => ⟨S200x128, .f32⟩
  | .local _ .vmem, ⟨18, _⟩ => ⟨S200x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S200x128, .f32⟩
  | .local _ .vmem, ⟨23, _⟩ => ⟨S200x128, .f32⟩
  | .local _ .vmem, ⟨24, _⟩ => ⟨S200x128, .f32⟩
  | .local _ .vmem, ⟨25, _⟩ => ⟨S200x128, .f32⟩
  | .local _ .vmem, ⟨26, _⟩ => ⟨S200x128, .f32⟩
  | .local _ .vmem, ⟨27, _⟩ => ⟨S200x128, .f32⟩
  | .local _ .vmem, ⟨28, _⟩ => ⟨S200x10000, .f32⟩
  | .local _ .vmem, ⟨29, _⟩ => ⟨S200x10000, .f32⟩
  | .local _ .vmem, ⟨30, _⟩ => ⟨S200x10000, .f32⟩
  | .local _ .vmem, ⟨31, _⟩ => ⟨S200x10000, .f32⟩
  | .local _ .vmem, ⟨32, _⟩ => ⟨S10000x128, .f32⟩
  | .local _ .vmem, ⟨33, _⟩ => ⟨S10000x128, .f32⟩
  | .local _ .vmem, ⟨34, _⟩ => ⟨S200x128, .f32⟩
  | .local _ .vmem, ⟨35, _⟩ => ⟨S200x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S200x128, .f32⟩
  | .local _ .vmem, ⟨40, _⟩ => ⟨S200x128, .f32⟩
  | .local _ .vmem, ⟨41, _⟩ => ⟨S200x128, .f32⟩
  | .local _ .vmem, ⟨42, _⟩ => ⟨S200x128, .f32⟩
  | .local _ .vmem, ⟨43, _⟩ => ⟨S200x128, .f32⟩
  | .local _ .vmem, ⟨44, _⟩ => ⟨S200x128, .f32⟩
  | .local _ .vmem, ⟨45, _⟩ => ⟨S200x10000, .f32⟩
  | .local _ .vmem, ⟨46, _⟩ => ⟨S200x10000, .f32⟩
  | .local _ .vmem, ⟨47, _⟩ => ⟨S200x10000, .f32⟩
  | .local _ .vmem, ⟨48, _⟩ => ⟨S200x10000, .f32⟩
  | .local _ .vmem, ⟨49, _⟩ => ⟨S10000x128, .f32⟩
  | .local _ .vmem, ⟨50, _⟩ => ⟨S10000x128, .f32⟩
  | .local _ .vmem, ⟨51, _⟩ => ⟨S200x128, .f32⟩
  | .local _ .vmem, ⟨52, _⟩ => ⟨S200x128, .f32⟩
  | .local _ .vmem, ⟨53, _⟩ => ⟨S128x128, .f32⟩
  | .local _ .vmem, ⟨54, _⟩ => ⟨S200x128, .f32⟩
  | .local _ .vmem, ⟨55, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v2_0 : Ref sig .tc := ⟨.hbm, 19, rfl⟩
abbrev main_v2_1 : Ref sig .tc := ⟨.hbm, 20, rfl⟩
abbrev main_v2_2 : Ref sig .tc := ⟨.hbm, 21, rfl⟩
abbrev main_v3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc2_stg10_0 : Ref sig .tc := ⟨.vmem, 43, rfl⟩
abbrev cc2_stg10_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg4_1 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg6_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem4_1 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem8_1 : DmaSem sig := 40
abbrev cc2_sem9_0 : DmaSem sig := 41
abbrev cc2_sem9_1 : DmaSem sig := 42
abbrev cc2_sem10_0 : DmaSem sig := 43
abbrev cc2_sem10_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem3_0 : DmaSem sig := 50
abbrev cc3_sem4_0 : DmaSem sig := 51
abbrev cc3_sem4_1 : DmaSem sig := 52
abbrev cc3_sem5_0 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S200x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S200x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S200x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S200x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S200x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S200x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S200x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10000x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S200x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S200x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  inb_S200x128_S200x128_0_0 : ∀ a, (![0, 0] : Fin 2 → Nat) a + S200x128.size a ≤ S200x128.size a
  h_S200x128 : 0 < S200x128.numel
  inb_S128x128_S128x128_0_0 : ∀ a, (![0, 0] : Fin 2 → Nat) a + S128x128.size a ≤ S128x128.size a
  h_S128x128 : 0 < S128x128.numel
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S200x128_S200x128 : S200x128.ShapeCasts S200x128
  reduces_S200x128_S200 : S200x128.Reduces [1] S200
  shapeCasts_S200_S200x1 : S200.ShapeCasts S200x1
  broadcasts_S200x1_S200x128 : S200x1.Broadcasts S200x128
  dot_S200x128_S128x128_S200x128_1_0_0_1_n_n_wf : DotDims.WF S200x128 S128x128 S200x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .f32 = 32 ∨ (Rect.block (s := S10000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S10000x128.size a
  hwx1_3 : ∀ i : grid1.Coords, EltTy.bits .f32 = 32 ∨ (Rect.block (s := S10000x128) S10000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .f32 = 32 ∨ (Rect.block (s := S10000x128) S200x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S200x128.size a ≤ S10000x128.size a
  hwx1_8 : ∀ i : grid1.Coords, EltTy.bits .f32 = 32 ∨ (Rect.block (s := S10000x128) S200x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S200x128.size a ≤ S10000x128.size a
  hwx1_9 : ∀ i : grid1.Coords, EltTy.bits .f32 = 32 ∨ (Rect.block (s := S10000x128) S200x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S200x128.size a ≤ S10000x128.size a
  hwx1_10 : ∀ i : grid1.Coords, EltTy.bits .f32 = 32 ∨ (Rect.block (s := S10000x128) S200x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .f32 = 32 ∨ (Rect.block (s := S10000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S10000x128.size a
  hwx2_3 : ∀ i : grid2.Coords, EltTy.bits .f32 = 32 ∨ (Rect.block (s := S10000x128) S10000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x128.size a ≤ S10000x128.size a
  hwx2_4 : ∀ i : grid2.Coords, EltTy.bits .f32 = 32 ∨ (Rect.block (s := S10000x128) S200x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S200x128.size a ≤ S10000x128.size a
  hwx2_8 : ∀ i : grid2.Coords, EltTy.bits .f32 = 32 ∨ (Rect.block (s := S10000x128) S200x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S200x128.size a ≤ S10000x128.size a
  hwx2_9 : ∀ i : grid2.Coords, EltTy.bits .f32 = 32 ∨ (Rect.block (s := S10000x128) S200x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S200x128.size a ≤ S10000x128.size a
  hwx2_10 : ∀ i : grid2.Coords, EltTy.bits .f32 = 32 ∨ (Rect.block (s := S10000x128) S200x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S200x10000.size a ≤ S10000x10000.size a
  hwx3_1 : ∀ i : grid3.Coords, EltTy.bits .f32 = 32 ∨ (Rect.block (s := S10000x10000) S200x10000.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S10000x128.size a
  hwx3_2 : ∀ i : grid3.Coords, EltTy.bits .f32 = 32 ∨ (Rect.block (s := S10000x128) S10000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S10000x128.size a
  hwx3_3 : ∀ i : grid3.Coords, EltTy.bits .f32 = 32 ∨ (Rect.block (s := S10000x128) S10000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S200x128.size a ≤ S10000x128.size a
  hwx3_4 : ∀ i : grid3.Coords, EltTy.bits .f32 = 32 ∨ (Rect.block (s := S10000x128) S200x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S200x128.size a ≤ S10000x128.size a
  hwx3_6 : ∀ i : grid3.Coords, EltTy.bits .f32 = 32 ∨ (Rect.block (s := S10000x128) S200x128.size (cc3_transform_6 i) (hinb3_6 i)).WholeWords (EltTy.packing .f32)

variable [Facts₀]

def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S200x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S10000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_2) S200x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v1_0) S200x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1_1) S200x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v1_2) S200x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S10000x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1_2) S200x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v2_0) S200x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v2_1) S200x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v2_2) S200x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S200x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2_0) S10000x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2_1) S10000x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v2_2) S200x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v3) S200x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 49
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S10000, .f32⟩
  | .hbm, ⟨41, _⟩ => ⟨S10000x1, .f32⟩
  | .hbm, ⟨42, _⟩ => ⟨S10000x1, .f32⟩
  | .hbm, ⟨43, _⟩ => ⟨S_, .f32⟩
  | .hbm, ⟨44, _⟩ => ⟨S10000x1, .f32⟩
  | .hbm, ⟨45, _⟩ => ⟨S10000x1, .f32⟩
  | .hbm, ⟨46, _⟩ => ⟨S10000x128, .f32⟩
  | .hbm, ⟨47, _⟩ => ⟨S10000x128, .f32⟩
  | .hbm, ⟨48, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.ResultRun.lean ====
/-
  The kernel program's run with its RESULT named. The program is four pipelined regions in a row; the contents of
  every unscoped buffer at the boundaries between them are the fold `W0 … W4` (each region leaves its output arrays
  at what its write-backs fold to and every other buffer as it found it). Every weakly fair execution ends with the
  result array at the last boundary's contents, `W4` read at the result's buffer, and with the thirteen argument
  arrays as launched.
-/
import proofs.«173045_g29257317220559_cont_9to1_639_3_alg».proof.Proof.Gen.KernelIdeal.Frame

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the four regions terminates without a fault; the result array then holds the last
    boundary's contents at its buffer, and each argument array what it held at launch. The last thread state holds
    every unscoped buffer at `W4`; the result's buffer and the arguments' are among them. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.Net

end
-- ==== Proof.LibColumn.lean ====
/-
  Two layout operations of a keepdims reduction read at an index: a vector `[a]` recast as a column `[a, 1]`, and a
  column `[a, 1]` broadcast along its rows to `[a, b]`. Both read the operand at the row's coordinate.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The four kernels' arithmetic read at one entry of a block.

  A kernel body sees a stripe of 200 rows. Its matrix products accumulate into zero, so entry (p, q) of a product is
  the plain sum over the contracted index of the factors' products: over the 128 features for a product with a weight
  matrix, over the 10000 simplices for a product of a Laplacian stripe with a feature matrix. A row's sum of squares
  is the sum over that row's 128 entries. Everything else in the bodies is entry by entry.
-/
import proofs.«173045_g29257317220559_cont_9to1_639_3_alg».proof.Proof.Gen.KernelIdeal.Skeleton
import proofs.«173045_g29257317220559_cont_9to1_639_3_alg».proof.Proof.LibColumn
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The dimension numbers of a stripe times a weight matrix, and of a Laplacian stripe times a feature matrix. -/
abbrev dFeat := dot_S200x128_S128x128_S200x128_1_0_0_1_n_n
abbrev dSimp := dot_S200x10000_S10000x128_S200x128_1_0_0_1_n_n

/-- In either product the left factor is read in the output's row. -/
theorem dFeat_lhs_row (i : S200x128.Idx) (c : dFeat.contr.Idx) : (dFeat.lhsIdx i c 0).val = (i 0).val := by
  unfold DotDims.lhsIdx
  rw [dif_neg (show ¬(0 : Fin S200x128.rank) ∈ dFeat.lhsBatch by decide), dif_pos (show (0 : Fin S200x128.rank) ∈ dFeat.lhsNonContracting by decide)]
  rfl
/-- … and the right factor in the output's column. -/
theorem dFeat_rhs_col (i : S200x128.Idx) (c : dFeat.contr.Idx) : (dFeat.rhsIdx i c 1).val = (i 1).val := by
  unfold DotDims.rhsIdx
  rw [dif_neg (show ¬(1 : Fin S128x128.rank) ∈ dFeat.rhsBatch by decide), dif_pos (show (1 : Fin S128x128.rank) ∈ dFeat.rhsNonContracting by decide)]
  rfl
theorem dSimp_lhs_row (i : S200x128.Idx) (c : dSimp.contr.Idx) : (dSimp.lhsIdx i c 0).val = (i 0).val := by
  unfold DotDims.lhsIdx
  rw [dif_neg (show ¬(0 : Fin S200x10000.rank) ∈ dSimp.lhsBatch by decide), dif_pos (show (0 : Fin S200x10000.rank) ∈ dSimp.lhsNonContracting by decide)]
  rfl
theorem dSimp_rhs_col (i : S200x128.Idx) (c : dSimp.contr.Idx) : (dSimp.rhsIdx i c 1).val = (i 1).val := by
  unfold DotDims.rhsIdx
  rw [dif_neg (show ¬(1 : Fin S10000x128.rank) ∈ dSimp.rhsBatch by decide), dif_pos (show (1 : Fin S10000x128.rank) ∈ dSimp.rhsNonContracting by decide)]
  rfl

/-- A stripe times a weight matrix, accumulated into zero: entry (p, q) is the sum over the features. -/
theorem mm_feat (x : FVec Ideal S200x128 .f32) (w : FVec Ideal S128x128 .f32) (p : Fin 200) (q : Fin 128) :
    matmul dFeat none x w (constant (F := Ideal) S200x128 .f32 0x00000000#32) (ix2 p q)
      = ∑ k : Fin 128, x (ix2 p k) * w (ix2 k q) := by
  simp only [matmul]
  rw [Ideal.matmul_constant_zero_apply, ← Equiv.sum_comp (contrEquiv1 dFeat 128 rfl rfl).symm]
  refine Finset.sum_congr rfl fun k _ => ?_
  have hk := contrEquiv1_symm_val dFeat 128 rfl rfl k
  have el : dFeat.lhsIdx (ix2 p q) ((contrEquiv1 dFeat 128 rfl rfl).symm k) = ix2 p k := funext fun a => Fin.ext (by
    match a with
    | ⟨0, _⟩ => exact dFeat_lhs_row _ _
    | ⟨1, _⟩ => exact (dFeat.lhsIdx_val_of_single rfl _ _).trans hk)
  have er : dFeat.rhsIdx (ix2 p q) ((contrEquiv1 dFeat 128 rfl rfl).symm k) = ix2 k q := funext fun a => Fin.ext (by
    match a with
    | ⟨0, _⟩ => exact (dFeat.rhsIdx_val_of_single rfl _ _).trans hk
    | ⟨1, _⟩ => exact dFeat_rhs_col _ _)
  rw [el, er]

/-- A Laplacian stripe times a feature matrix, accumulated into zero: entry (p, q) is the sum over the simplices. -/
theorem mm_simp (x : FVec Ideal S200x10000 .f32) (y : FVec Ideal S10000x128 .f32) (p : Fin 200) (q : Fin 128) :
    matmul dSimp none x y (constant (F := Ideal) S200x128 .f32 0x00000000#32) (ix2 p q)
      = ∑ k : Fin 10000, x (ix2 p k) * y (ix2 k q) := by
  simp only [matmul]
  rw [Ideal.matmul_constant_zero_apply, ← Equiv.sum_comp (contrEquiv1 dSimp 10000 rfl rfl).symm]
  refine Finset.sum_congr rfl fun k _ => ?_
  have hk := contrEquiv1_symm_val dSimp 10000 rfl rfl k
  have el : dSimp.lhsIdx (ix2 p q) ((contrEquiv1 dSimp 10000 rfl rfl).symm k) = ix2 p k := funext fun a => Fin.ext (by
    match a with
    | ⟨0, _⟩ => exact dSimp_lhs_row _ _
    | ⟨1, _⟩ => exact (dSimp.lhsIdx_val_of_single rfl _ _).trans hk)
  have er : dSimp.rhsIdx (ix2 p q) ((contrEquiv1 dSimp 10000 rfl rfl).symm k) = ix2 k q := funext fun a => Fin.ext (by
    match a with
    | ⟨0, _⟩ => exact (dSimp.rhsIdx_val_of_single rfl _ _).trans hk
    | ⟨1, _⟩ => exact dSimp_rhs_col _ _)
  rw [el, er]

/-- The lane sum of a stripe, from zero: entry `p` is the sum over row `p`. -/
theorem row_sum (v : FVec Ideal S200x128 .f32) (h : Shape.Reduces S200x128 [1] S200) (hφ : FKind.Formats .f32)
    (hacc : (0x00000000#32 : BitVec 32) = 0x00000000#32) (p : Fin 200) :
    multiReduction (F := Ideal) .add [1] S200 v 0x00000000#32 h hφ hacc (ix1 p) = ∑ k : Fin 128, v (ix2 p k) := by
  refine (Ideal.multiReduction_add_single v 0x00000000#32 h hφ hacc (ix1 p)).trans ?_
  show ∑ k : Fin 128, v (h.lift (ix1 p) k) = _
  refine Finset.sum_congr rfl fun k _ => congrArg v (funext fun a => Fin.ext ?_)
  match a with
  | ⟨0, _⟩ => rfl
  | ⟨1, _⟩ => rfl

/-! ## The projection kernel -/

/-- Each of its three stores holds the stripe times one weight matrix. -/
theorem proj1_apply (x : FVec Ideal S200x128 .f32) (w : FVec Ideal S128x128 .f32) (p : Fin 200) (q : Fin 128) :
    k0_pay1 (F := Ideal) x w (ix2 p q) = ∑ k : Fin 128, x (ix2 p k) * w (ix2 k q) := mm_feat x w p q
theorem proj2_apply (x : FVec Ideal S200x128 .f32) (w : FVec Ideal S128x128 .f32) (p : Fin 200) (q : Fin 128) :
    k0_pay2 (F := Ideal) x w (ix2 p q) = ∑ k : Fin 128, x (ix2 p k) * w (ix2 k q) := mm_feat x w p q
theorem proj3_apply (x : FVec Ideal S200x128 .f32) (w : FVec Ideal S128x128 .f32) (p : Fin 200) (q : Fin 128) :
    k0_pay3 (F := Ideal) x w (ix2 p q) = ∑ k : Fin 128, x (ix2 p k) * w (ix2 k q) := mm_feat x w p q

/-! ## A layer kernel -/

/-- The activated stripe of a layer: `tanh` of the two Laplacian stripes' messages plus the skip stripe, at (p, k). -/
def actBlk (lu ld : FVec Ideal S200x10000 .f32) (yu yd : FVec Ideal S10000x128 .f32) (yi : FVec Ideal S200x128 .f32)
    (p : Fin 200) (k : Fin 128) : EReal :=
  Ideal.tanh ((∑ j : Fin 10000, lu (ix2 p j) * yu (ix2 j k)) + (∑ j : Fin 10000, ld (ix2 p j) * yd (ix2 j k)) + yi (ix2 p k))

/-- The activated stripe as the three kernels that compute it print it (the same operations in each). -/
def actVec (lu ld : FVec Ideal S200x10000 .f32) (yu yd : FVec Ideal S10000x128 .f32) (yi : FVec Ideal S200x128 .f32) :
    FVec Ideal S200x128 .f32 :=
  tanh (addf (addf (matmul dSimp none lu (shapeCast S10000x128 yu shapeCasts_S10000x128_S10000x128) (constant S200x128 .f32 0x00000000#32))
      (matmul dSimp none ld (shapeCast S10000x128 yd shapeCasts_S10000x128_S10000x128) (constant S200x128 .f32 0x00000000#32)))
    (shapeCast S200x128 yi shapeCasts_S200x128_S200x128))

theorem actVec_apply (lu ld : FVec Ideal S200x10000 .f32) (yu yd : FVec Ideal S10000x128 .f32) (yi : FVec Ideal S200x128 .f32)
    (p : Fin 200) (k : Fin 128) : actVec lu ld yu yd yi (ix2 p k) = actBlk lu ld yu yd yi p k := by
  unfold actVec actBlk
  rw [shapeCast_self, shapeCast_self, shapeCast_self]
  show Ideal.tanh (matmul dSimp none lu yu (constant S200x128 .f32 0x00000000#32) (ix2 p k)
    + matmul dSimp none ld yd (constant S200x128 .f32 0x00000000#32) (ix2 p k) + yi (ix2 p k)) = _
  rw [mm_simp, mm_simp]

theorem layer1_act (lu : FVec Ideal S200x10000 .f32) (yu : FVec Ideal S10000x128 .f32) (ld : FVec Ideal S200x10000 .f32)
    (yd : FVec Ideal S10000x128 .f32) (yi : FVec Ideal S200x128 .f32) : k1_pay1 (F := Ideal) lu yu ld yd yi = actVec lu ld yu yd yi := rfl
theorem layer2_act (lu : FVec Ideal S200x10000 .f32) (yu : FVec Ideal S10000x128 .f32) (ld : FVec Ideal S200x10000 .f32)
    (yd : FVec Ideal S10000x128 .f32) (yi : FVec Ideal S200x128 .f32) : k2_pay1 (F := Ideal) lu yu ld yd yi = actVec lu ld yu yd yi := rfl

/-- The activated stripe times a weight matrix, at (p, q): what each store of a layer kernel holds. -/
theorem actVec_mm (lu ld : FVec Ideal S200x10000 .f32) (yu yd : FVec Ideal S10000x128 .f32) (yi : FVec Ideal S200x128 .f32)
    (w : FVec Ideal S128x128 .f32) (p : Fin 200) (q : Fin 128) :
    matmul dFeat none (actVec lu ld yu yd yi) w (constant (F := Ideal) S200x128 .f32 0x00000000#32) (ix2 p q)
      = ∑ k : Fin 128, actBlk lu ld yu yd yi p k * w (ix2 k q) :=
  (mm_feat _ w p q).trans (Finset.sum_congr rfl fun k _ => by rw [actVec_apply])

theorem layer1_store2 (lu : FVec Ideal S200x10000 .f32) (yu : FVec Ideal S10000x128 .f32) (ld : FVec Ideal S200x10000 .f32)
    (yd : FVec Ideal S10000x128 .f32) (yi : FVec Ideal S200x128 .f32) (w : FVec Ideal S128x128 .f32) (p : Fin 200) (q : Fin 128) :
    k1_pay2 (F := Ideal) lu yu ld yd yi w (ix2 p q) = ∑ k : Fin 128, actBlk lu ld yu yd yi p k * w (ix2 k q) := actVec_mm lu ld yu yd yi w p q
theorem layer1_store3 (lu : FVec Ideal S200x10000 .f32) (yu : FVec Ideal S10000x128 .f32) (ld : FVec Ideal S200x10000 .f32)
    (yd : FVec Ideal S10000x128 .f32) (yi : FVec Ideal S200x128 .f32) (w : FVec Ideal S128x128 .f32) (p : Fin 200) (q : Fin 128) :
    k1_pay3 (F := Ideal) lu yu ld yd yi w (ix2 p q) = ∑ k : Fin 128, actBlk lu ld yu yd yi p k * w (ix2 k q) := actVec_mm lu ld yu yd yi w p q
theorem layer1_store4 (lu : FVec Ideal S200x10000 .f32) (yu : FVec Ideal S10000x128 .f32) (ld : FVec Ideal S200x10000 .f32)
    (yd : FVec Ideal S10000x128 .f32) (yi : FVec Ideal S200x128 .f32) (w : FVec Ideal S128x128 .f32) (p : Fin 200) (q : Fin 128) :
    k1_pay4 (F := Ideal) lu yu ld yd yi w (ix2 p q) = ∑ k : Fin 128, actBlk lu ld yu yd yi p k * w (ix2 k q) := actVec_mm lu ld yu yd yi w p q
theorem layer2_store2 (lu : FVec Ideal S200x10000 .f32) (yu : FVec Ideal S10000x128 .f32) (ld : FVec Ideal S200x10000 .f32)
    (yd : FVec Ideal S10000x128 .f32) (yi : FVec Ideal S200x128 .f32) (w : FVec Ideal S128x128 .f32) (p : Fin 200) (q : Fin 128) :
    k2_pay2 (F := Ideal) lu yu ld yd yi w (ix2 p q) = ∑ k : Fin 128, actBlk lu ld yu yd yi p k * w (ix2 k q) := actVec_mm lu ld yu yd yi w p q
theorem layer2_store3 (lu : FVec Ideal S200x10000 .f32) (yu : FVec Ideal S10000x128 .f32) (ld : FVec Ideal S200x10000 .f32)
    (yd : FVec Ideal S10000x128 .f32) (yi : FVec Ideal S200x128 .f32) (w : FVec Ideal S128x128 .f32) (p : Fin 200) (q : Fin 128) :
    k2_pay3 (F := Ideal) lu yu ld yd yi w (ix2 p q) = ∑ k : Fin 128, actBlk lu ld yu yd yi p k * w (ix2 k q) := actVec_mm lu ld yu yd yi w p q
theorem layer2_store4 (lu : FVec Ideal S200x10000 .f32) (yu : FVec Ideal S10000x128 .f32) (ld : FVec Ideal S200x10000 .f32)
    (yd : FVec Ideal S10000x128 .f32) (yi : FVec Ideal S200x128 .f32) (w : FVec Ideal S128x128 .f32) (p : Fin 200) (q : Fin 128) :
    k2_pay4 (F := Ideal) lu yu ld yd yi w (ix2 p q) = ∑ k : Fin 128, actBlk lu ld yu yd yi p k * w (ix2 k q) := actVec_mm lu ld yu yd yi w p q

/-! ## The last kernel -/

/-- Row normalisation and `tanh` of a stripe `g`, as the last kernel prints it: the lane sum of squares recast as a
    column, its root floored, the column broadcast back along the rows, the quotient, `tanh`. -/
def tailVec (g : FVec Ideal S200x128 .f32) : FVec Ideal S200x128 .f32 :=
  tanh (divf g (broadcastTo S200x128 (maximumf (sqrt (shapeCast S200x1
      (multiReduction .add [1] S200 (mulf g g) 0x00000000#32 reduces_S200x128_S200 (.inl rfl) rfl) shapeCasts_S200_S200x1))
    (broadcast S200x1 (Scalar.ofBits .f32 0x2B8CBCCC#32))) broadcasts_S200x1_S200x128))

/-- At (p, q): `g (p, q)` over the floored Euclidean norm of row `p`, through `tanh`. -/
theorem tailVec_apply (g : FVec Ideal S200x128 .f32) (p : Fin 200) (q : Fin 128) :
    tailVec g (ix2 p q)
      = Ideal.tanh (Ideal.div (g (ix2 p q))
          (max (Ideal.sqrt (∑ k : Fin 128, g (ix2 p k) * g (ix2 p k))) (Ideal.ofBits .f32 0x2B8CBCCC#32))) := by
  unfold tailVec
  show Ideal.tanh (Ideal.div (g (ix2 p q)) (broadcastTo S200x128 (maximumf (sqrt (shapeCast S200x1
      (multiReduction (F := Ideal) .add [1] S200 (mulf g g) 0x00000000#32 reduces_S200x128_S200 (.inl rfl) rfl) shapeCasts_S200_S200x1))
    (broadcast S200x1 (Scalar.ofBits (F := Ideal) .f32 0x2B8CBCCC#32))) broadcasts_S200x1_S200x128 (ix2 p q))) = _
  rw [broadcastTo_a1_ab_apply]
  show Ideal.tanh (Ideal.div (g (ix2 p q)) (max (Ideal.sqrt (shapeCast S200x1
      (multiReduction (F := Ideal) .add [1] S200 (mulf g g) 0x00000000#32 reduces_S200x128_S200 (.inl rfl) rfl) shapeCasts_S200_S200x1
      (ix2 p (0 : Fin 1)))) (Ideal.ofBits .f32 0x2B8CBCCC#32))) = _
  rw [shapeCast_a_a1_apply, row_sum]
  rfl

/-- The last kernel's store: the activated stripe times the last weight matrix, normalised row by row. -/
theorem final_store (lu : FVec Ideal S200x10000 .f32) (yu : FVec Ideal S10000x128 .f32) (ld : FVec Ideal S200x10000 .f32)
    (yd : FVec Ideal S10000x128 .f32) (yi : FVec Ideal S200x128 .f32) (w : FVec Ideal S128x128 .f32) :
    k3_pay1 (F := Ideal) lu yu ld yd yi w
      = tailVec (matmul dFeat none (actVec lu ld yu yd yi) w (constant (F := Ideal) S200x128 .f32 0x00000000#32)) := rfl

end Cert.KernelIdeal.Pay

end
-- ==== Proof.Spec.lean ====
/-
  The network both programs compute, index by index on the extended reals.

  N = 10000 simplices with 128 features. One layer sends features `X` to
  `tanh (L_u · (X · Wu) + L_d · (X · Wd) + X · Wi)`: a feature projection is a sum over the 128 input features, a
  propagation through a Laplacian a sum over the 10000 simplices. Three layers are followed by one more projection,
  and each row `g` of the result is divided by `max (sqrt (Σ g²), ε)` and passed through `tanh`.
  Nothing here mentions a program: the shapes are literal and an index is built from its row and its column.
-/
import Idealize.ShloMosaic.PureOps.Ideal
import Idealize.ShloMosaic.Lib.ValueIdx

noncomputable section

namespace Cert.Net

open Idealize.ShloMosaic Idealize.ShloMosaic.ValueIdx

/-- Features of every simplex, a Laplacian, a weight matrix. -/
abbrev NF : Shape := ⟨2, ![10000, 128]⟩
abbrev NN : Shape := ⟨2, ![10000, 10000]⟩
abbrev FF : Shape := ⟨2, ![128, 128]⟩

/-- The row and the column of an index of a matrix, at the matrix's literal extents. -/
abbrev row {n0 n1 : Nat} (i : (⟨2, ![n0, n1]⟩ : Shape).Idx) : Fin n0 := ⟨(i 0).val, idx2_lt0 i⟩
abbrev col {n0 n1 : Nat} (i : (⟨2, ![n0, n1]⟩ : Shape).Idx) : Fin n1 := ⟨(i 1).val, idx2_lt1 i⟩

/-- `A · W`: entry (r, q) is the sum over the 128 features `k` of `A (r, k) · W (k, q)`. -/
def proj (A : NF.Idx → EReal) (W : FF.Idx → EReal) : NF.Idx → EReal :=
  fun i => ∑ k : Fin 128, A (ix2 (row i) k) * W (ix2 k (col i))

/-- `L · Y`: entry (r, q) is the sum over the 10000 simplices `k` of `L (r, k) · Y (k, q)`. -/
def prop (L : NN.Idx → EReal) (Y : NF.Idx → EReal) : NF.Idx → EReal :=
  fun i => ∑ k : Fin 10000, L (ix2 (row i) k) * Y (ix2 k (col i))

/-- The layer's nonlinearity on the sum of its three messages, entry by entry. -/
def act (P Q S : NF.Idx → EReal) : NF.Idx → EReal := fun i => Ideal.tanh (P i + Q i + S i)

/-- The floor under a row's norm (the f32 nearest 1e-12). -/
def eps : EReal := Ideal.ofBits .f32 0x2B8CBCCC#32

/-- Row normalisation and the last `tanh`: entry (r, q) of `g` over the floored Euclidean norm of row `r`. -/
def tail (g : NF.Idx → EReal) : NF.Idx → EReal :=
  fun i => Ideal.tanh (Ideal.div (g i) (max (Ideal.sqrt (∑ k : Fin 128, g (ix2 (row i) k) * g (ix2 (row i) k))) eps))

/-- One layer: upper and lower messages and the skip term. -/
def layer (Lu Ld : NN.Idx → EReal) (X : NF.Idx → EReal) (Wu Wd Wi : FF.Idx → EReal) : NF.Idx → EReal :=
  act (prop Lu (proj X Wu)) (prop Ld (proj X Wd)) (proj X Wi)

/-- Three layers, the last projection, the normalisation. -/
def net (X : NF.Idx → EReal) (Lu Ld : NN.Idx → EReal) (W1u W1d W1i W2u W2d W2i W3u W3d W3i Wfc : FF.Idx → EReal) :
    NF.Idx → EReal :=
  tail (proj (layer Lu Ld (layer Lu Ld (layer Lu Ld X W1u W1d W1i) W2u W2d W2i) W3u W3d W3i) Wfc)

theorem proj_ix2 (A : NF.Idx → EReal) (W : FF.Idx → EReal) (r : Fin 10000) (q : Fin 128) :
    proj A W (ix2 r q) = ∑ k : Fin 128, A (ix2 r k) * W (ix2 k q) := rfl

theorem prop_ix2 (L : NN.Idx → EReal) (Y : NF.Idx → EReal) (r : Fin 10000) (q : Fin 128) :
    prop L Y (ix2 r q) = ∑ k : Fin 10000, L (ix2 r k) * Y (ix2 k q) := rfl

theorem act_ix2 (P Q S : NF.Idx → EReal) (r : Fin 10000) (q : Fin 128) :
    act P Q S (ix2 r q) = Ideal.tanh (P (ix2 r q) + Q (ix2 r q) + S (ix2 r q)) := rfl

theorem tail_ix2 (g : NF.Idx → EReal) (r : Fin 10000) (q : Fin 128) :
    tail g (ix2 r q)
      = Ideal.tanh (Ideal.div (g (ix2 r q)) (max (Ideal.sqrt (∑ k : Fin 128, g (ix2 r k) * g (ix2 r k))) eps)) := rfl

end Cert.Net

end
-- ==== Proof.Region0.lean ====
/-
  The projection region as whole arrays. Its grid has 50 points; point `t` reads rows 200·t … 200·t + 199 of the
  features and the three weight matrices whole, and writes rows 200·t … 200·t + 199 of three outputs. The stripes
  tile the 10000 rows, so after the region each output array is the features times its weight matrix, entry by entry,
  whatever the buffers held when the region was entered.
-/
import proofs.«173045_g29257317220559_cont_9to1_639_3_alg».proof.Proof.Gen.KernelIdeal.Frame
import proofs.«173045_g29257317220559_cont_9to1_639_3_alg».proof.Proof.Payload
import proofs.«173045_g29257317220559_cont_9to1_639_3_alg».proof.Proof.Spec
import Idealize.ShloMosaic.Lib.Pipeline.Value

noncomputable section

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat Cfg Window)

/- The contents of the core's buffers when the region is entered: everything below holds for any. -/
variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg0.N) : t.val < 50 := lt_of_lt_of_eq (show t.val < grid0.N from t.isLt) N_0

/-- The block index maps over the grid: the row-stripe windows sit at block (t, 0), the weights at (0, 0). -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The features' block at point `t` is rows 200·t … of the features' array. -/
theorem read_x (c : Dev nD) (t : Fin cfg0.N) (p : Fin 200) (k : Fin 128) :
    iblk0 V c 0 t (ix2 p k) = V c main_arg0 (ix2 ⟨t.val * 200 + p.val, by have := t_lt t; omega⟩ k) := by
  show V c main_arg0 (((cfg0.win 0).blk t).view.emb (ix2 p k)) = _
  refine congrArg (V c main_arg0) (funext fun a => Fin.ext ?_)
  obtain ⟨e0, e1, -⟩ := idx t
  match a with
  | ⟨0, _⟩ => show win0_0.index t (0 : Fin 2) * 200 + 1 * p.val = t.val * 200 + p.val; rw [e0]; omega
  | ⟨1, _⟩ => show win0_0.index t (1 : Fin 2) * 128 + 1 * k.val = k.val; rw [e1]; omega

/-- Weight window 1's block is its whole array. -/
theorem read_w1 (c : Dev nD) (t : Fin cfg0.N) (k q : Fin 128) : iblk0 V c 1 t (ix2 k q) = V c main_arg3 (ix2 k q) := by
  show V c main_arg3 (((cfg0.win 1).blk t).view.emb (ix2 k q)) = _
  refine congrArg (V c main_arg3) (funext fun a => Fin.ext ?_)
  have e := idx t
  match a with
  | ⟨0, _⟩ => show win0_1.index t (0 : Fin 2) * 128 + 1 * k.val = k.val; rw [e.2.2.1]; omega
  | ⟨1, _⟩ => show win0_1.index t (1 : Fin 2) * 128 + 1 * q.val = q.val; rw [e.2.2.2.1]; omega

/-- What point `t` writes back through output window 4 is block `t` of the features times the weight matrix. -/
theorem flushed4 (c : Dev nD) (t : Fin cfg0.N) :
    (dat0 V c).flushed 4 t
      = ((cfg0.win 4).blk t).view.read (Elt Ideal) (Cert.Net.proj (V c main_arg0) (V c main_arg3)) := by
  show (cfg0.win 4).cut (grid0.coords t) ((dat0 V c).after 4 t) = _
  rw [after0_4]
  unfold out0_4
  rw [View.canon_unit_zero hz]
  simp only [View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg0.win 4).blk t).view.emb (ix2 p q)
      = (ix2 ⟨t.val * 200 + p.val, by have := t_lt t; omega⟩ q : S10000x128.Idx) := funext fun a => Fin.ext (by
    have e := idx t
    match a with
    | ⟨0, _⟩ => show win0_4.index t (0 : Fin 2) * 200 + 1 * p.val = t.val * 200 + p.val; rw [e.2.2.2.2.2.2.2.2.1]; omega
    | ⟨1, _⟩ => show win0_4.index t (1 : Fin 2) * 128 + 1 * q.val = q.val; rw [e.2.2.2.2.2.2.2.2.2.1]; omega)
  show k0_pay1 (iblk0 V c 0 t) (iblk0 V c 1 t) (ix2 p q)
    = Cert.Net.proj (V c main_arg0) (V c main_arg3) (((cfg0.win 4).blk t).view.emb (ix2 p q))
  rw [hi, Cert.Net.proj_ix2]
  refine (Pay.proj1_apply _ _ p q).trans (Finset.sum_congr rfl fun k _ => ?_)
  rw [read_x, read_w1]

/-- An index of output 4's array is in point `t`'s block iff each coordinate is in the block's range. -/
theorem mem_blk4 (t : Fin cfg0.N) (i : S10000x128.Idx) :
    i ∈ ((cfg0.win 4).blk t).view.set ↔ ∀ a : Fin 2, win0_4.index t a * S200x128.size a ≤ (i a).val
      ∧ (i a).val < win0_4.index t a * S200x128.size a + S200x128.size a := by
  show i ∈ ((View.whole main_v0_0).slice (win0_4.rect t)).set ↔ _
  rw [View.set_slice_whole, Rect.mem_set_unit]
  exact Iff.rfl

/-- Row `r` of output 4 lies in the block of point `r / 200`. -/
theorem cover4 (i : S10000x128.Idx) :
    ∃ t : Fin cfg0.N, (cfg0.win 4).flush t = true ∧ i ∈ ((cfg0.win 4).blk t).view.set := by
  have hi0 : (i 0).val < 10000 := idx2_lt0 i
  have hi1 : (i 1).val < 128 := idx2_lt1 i
  have hN : (i 0).val / 200 < grid0.N := by rw [N_0]; omega
  refine ⟨⟨(i 0).val / 200, hN⟩, flush0_4 _, ?_⟩
  rw [mem_blk4]
  have e := idx ⟨(i 0).val / 200, hN⟩
  intro a
  match a with
  | ⟨0, _⟩ =>
    show win0_4.index ⟨(i 0).val / 200, hN⟩ (0 : Fin 2) * 200 ≤ (i 0).val
      ∧ (i 0).val < win0_4.index ⟨(i 0).val / 200, hN⟩ (0 : Fin 2) * 200 + 200
    rw [e.2.2.2.2.2.2.2.2.1]
    show (i 0).val / 200 * 200 ≤ (i 0).val ∧ (i 0).val < (i 0).val / 200 * 200 + 200
    omega
  | ⟨1, _⟩ =>
    show win0_4.index ⟨(i 0).val / 200, hN⟩ (1 : Fin 2) * 128 ≤ (i 1).val
      ∧ (i 1).val < win0_4.index ⟨(i 0).val / 200, hN⟩ (1 : Fin 2) * 128 + 128
    rw [e.2.2.2.2.2.2.2.2.2.1]
    omega

/-- Output 4's array after the region: the features times the weight matrix. -/
theorem final4 (c : Dev nD) : (dat0 V c).arrAt 4 cfg0.N = Cert.Net.proj (V c main_arg0) (V c main_arg3) :=
  (dat0 V c).arrAt_eq_of_cover 4 _ (fun t _ => flushed4 V c t) cover4

/-- Weight window 2's block is its whole array. -/
theorem read_w2 (c : Dev nD) (t : Fin cfg0.N) (k q : Fin 128) : iblk0 V c 2 t (ix2 k q) = V c main_arg4 (ix2 k q) := by
  show V c main_arg4 (((cfg0.win 2).blk t).view.emb (ix2 k q)) = _
  refine congrArg (V c main_arg4) (funext fun a => Fin.ext ?_)
  have e := idx t
  match a with
  | ⟨0, _⟩ => show win0_2.index t (0 : Fin 2) * 128 + 1 * k.val = k.val; rw [e.2.2.2.2.1]; omega
  | ⟨1, _⟩ => show win0_2.index t (1 : Fin 2) * 128 + 1 * q.val = q.val; rw [e.2.2.2.2.2.1]; omega

/-- What point `t` writes back through output window 5 is block `t` of the features times the weight matrix. -/
theorem flushed5 (c : Dev nD) (t : Fin cfg0.N) :
    (dat0 V c).flushed 5 t
      = ((cfg0.win 5).blk t).view.read (Elt Ideal) (Cert.Net.proj (V c main_arg0) (V c main_arg4)) := by
  show (cfg0.win 5).cut (grid0.coords t) ((dat0 V c).after 5 t) = _
  rw [after0_5]
  unfold out0_5
  rw [View.canon_unit_zero hz]
  simp only [View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg0.win 5).blk t).view.emb (ix2 p q)
      = (ix2 ⟨t.val * 200 + p.val, by have := t_lt t; omega⟩ q : S10000x128.Idx) := funext fun a => Fin.ext (by
    have e := idx t
    match a with
    | ⟨0, _⟩ => show win0_5.index t (0 : Fin 2) * 200 + 1 * p.val = t.val * 200 + p.val; rw [e.2.2.2.2.2.2.2.2.2.2.1]; omega
    | ⟨1, _⟩ => show win0_5.index t (1 : Fin 2) * 128 + 1 * q.val = q.val; rw [e.2.2.2.2.2.2.2.2.2.2.2.1]; omega)
  show k0_pay2 (iblk0 V c 0 t) (iblk0 V c 2 t) (ix2 p q)
    = Cert.Net.proj (V c main_arg0) (V c main_arg4) (((cfg0.win 5).blk t).view.emb (ix2 p q))
  rw [hi, Cert.Net.proj_ix2]
  refine (Pay.proj2_apply _ _ p q).trans (Finset.sum_congr rfl fun k _ => ?_)
  rw [read_x, read_w2]

/-- An index of output 5's array is in point `t`'s block iff each coordinate is in the block's range. -/
theorem mem_blk5 (t : Fin cfg0.N) (i : S10000x128.Idx) :
    i ∈ ((cfg0.win 5).blk t).view.set ↔ ∀ a : Fin 2, win0_5.index t a * S200x128.size a ≤ (i a).val
      ∧ (i a).val < win0_5.index t a * S200x128.size a + S200x128.size a := by
  show i ∈ ((View.whole main_v0_1).slice (win0_5.rect t)).set ↔ _
  rw [View.set_slice_whole, Rect.mem_set_unit]
  exact Iff.rfl

/-- Row `r` of output 5 lies in the block of point `r / 200`. -/
theorem cover5 (i : S10000x128.Idx) :
    ∃ t : Fin cfg0.N, (cfg0.win 5).flush t = true ∧ i ∈ ((cfg0.win 5).blk t).view.set := by
  have hi0 : (i 0).val < 10000 := idx2_lt0 i
  have hi1 : (i 1).val < 128 := idx2_lt1 i
  have hN : (i 0).val / 200 < grid0.N := by rw [N_0]; omega
  refine ⟨⟨(i 0).val / 200, hN⟩, flush0_5 _, ?_⟩
  rw [mem_blk5]
  have e := idx ⟨(i 0).val / 200, hN⟩
  intro a
  match a with
  | ⟨0, _⟩ =>
    show win0_5.index ⟨(i 0).val / 200, hN⟩ (0 : Fin 2) * 200 ≤ (i 0).val
      ∧ (i 0).val < win0_5.index ⟨(i 0).val / 200, hN⟩ (0 : Fin 2) * 200 + 200
    rw [e.2.2.2.2.2.2.2.2.2.2.1]
    show (i 0).val / 200 * 200 ≤ (i 0).val ∧ (i 0).val < (i 0).val / 200 * 200 + 200
    omega
  | ⟨1, _⟩ =>
    show win0_5.index ⟨(i 0).val / 200, hN⟩ (1 : Fin 2) * 128 ≤ (i 1).val
      ∧ (i 1).val < win0_5.index ⟨(i 0).val / 200, hN⟩ (1 : Fin 2) * 128 + 128
    rw [e.2.2.2.2.2.2.2.2.2.2.2.1]
    omega

/-- Output 5's array after the region: the features times the weight matrix. -/
theorem final5 (c : Dev nD) : (dat0 V c).arrAt 5 cfg0.N = Cert.Net.proj (V c main_arg0) (V c main_arg4) :=
  (dat0 V c).arrAt_eq_of_cover 5 _ (fun t _ => flushed5 V c t) cover5

/-- Weight window 3's block is its whole array. -/
theorem read_w3 (c : Dev nD) (t : Fin cfg0.N) (k q : Fin 128) : iblk0 V c 3 t (ix2 k q) = V c main_arg5 (ix2 k q) := by
  show V c main_arg5 (((cfg0.win 3).blk t).view.emb (ix2 k q)) = _
  refine congrArg (V c main_arg5) (funext fun a => Fin.ext ?_)
  have e := idx t
  match a with
  | ⟨0, _⟩ => show win0_3.index t (0 : Fin 2) * 128 + 1 * k.val = k.val; rw [e.2.2.2.2.2.2.1]; omega
  | ⟨1, _⟩ => show win0_3.index t (1 : Fin 2) * 128 + 1 * q.val = q.val; rw [e.2.2.2.2.2.2.2.1]; omega

/-- What point `t` writes back through output window 6 is block `t` of the features times the weight matrix. -/
theorem flushed6 (c : Dev nD) (t : Fin cfg0.N) :
    (dat0 V c).flushed 6 t
      = ((cfg0.win 6).blk t).view.read (Elt Ideal) (Cert.Net.proj (V c main_arg0) (V c main_arg5)) := by
  show (cfg0.win 6).cut (grid0.coords t) ((dat0 V c).after 6 t) = _
  rw [after0_6]
  unfold out0_6
  rw [View.canon_unit_zero hz]
  simp only [View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg0.win 6).blk t).view.emb (ix2 p q)
      = (ix2 ⟨t.val * 200 + p.val, by have := t_lt t; omega⟩ q : S10000x128.Idx) := funext fun a => Fin.ext (by
    have e := idx t
    match a with
    | ⟨0, _⟩ => show win0_6.index t (0 : Fin 2) * 200 + 1 * p.val = t.val * 200 + p.val; rw [e.2.2.2.2.2.2.2.2.2.2.2.2.1]; omega
    | ⟨1, _⟩ => show win0_6.index t (1 : Fin 2) * 128 + 1 * q.val = q.val; rw [e.2.2.2.2.2.2.2.2.2.2.2.2.2]; omega)
  show k0_pay3 (iblk0 V c 0 t) (iblk0 V c 3 t) (ix2 p q)
    = Cert.Net.proj (V c main_arg0) (V c main_arg5) (((cfg0.win 6).blk t).view.emb (ix2 p q))
  rw [hi, Cert.Net.proj_ix2]
  refine (Pay.proj3_apply _ _ p q).trans (Finset.sum_congr rfl fun k _ => ?_)
  rw [read_x, read_w3]

/-- An index of output 6's array is in point `t`'s block iff each coordinate is in the block's range. -/
theorem mem_blk6 (t : Fin cfg0.N) (i : S10000x128.Idx) :
    i ∈ ((cfg0.win 6).blk t).view.set ↔ ∀ a : Fin 2, win0_6.index t a * S200x128.size a ≤ (i a).val
      ∧ (i a).val < win0_6.index t a * S200x128.size a + S200x128.size a := by
  show i ∈ ((View.whole main_v0_2).slice (win0_6.rect t)).set ↔ _
  rw [View.set_slice_whole, Rect.mem_set_unit]
  exact Iff.rfl

/-- Row `r` of output 6 lies in the block of point `r / 200`. -/
theorem cover6 (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  have hN : (i 0).val / 200 < grid0.N := by rw [N_0]; omega
  refine ⟨⟨(i 0).val / 200, hN⟩, flush0_6 _, ?_⟩
  rw [mem_blk6]
  have e := idx ⟨(i 0).val / 200, hN⟩
  intro a
  match a with
  | ⟨0, _⟩ =>
    show win0_6.index ⟨(i 0).val / 200, hN⟩ (0 : Fin 2) * 200 ≤ (i 0).val
      ∧ (i 0).val < win0_6.index ⟨(i 0).val / 200, hN⟩ (0 : Fin 2) * 200 + 200
    rw [e.2.2.2.2.2.2.2.2.2.2.2.2.1]
    show (i 0).val / 200 * 200 ≤ (i 0).val ∧ (i 0).val < (i 0).val / 200 * 200 + 200
    omega
  | ⟨1, _⟩ =>
    show win0_6.index ⟨(i 0).val / 200, hN⟩ (1 : Fin 2) * 128 ≤ (i 1).val
      ∧ (i 1).val < win0_6.index ⟨(i 0).val / 200, hN⟩ (1 : Fin 2) * 128 + 128
    rw [e.2.2.2.2.2.2.2.2.2.2.2.2.2]
    omega

/-- Output 6's array after the region: the features times the weight matrix. -/
theorem final6 (c : Dev nD) : (dat0 V c).arrAt 6 cfg0.N = Cert.Net.proj (V c main_arg0) (V c main_arg5) :=
  (dat0 V c).arrAt_eq_of_cover 6 _ (fun t _ => flushed6 V c t) cover6

end Cert.KernelIdeal.Reg0

end
-- ==== Proof.Region1.lean ====
/-
  A layer region as whole arrays. Its grid has 50 points; point `t` reads rows 200·t … 200·t + 199 of the two
  Laplacians and of the skip projection, the upper and lower projections and the three next weight matrices whole,
  and writes rows 200·t … of three outputs. After the region each output array is the layer's activation — `tanh` of
  the upper message plus the lower message plus the skip term — times its weight matrix, entry by entry, as a function
  of the arrays the region was entered with.
-/
import proofs.«173045_g29257317220559_cont_9to1_639_3_alg».proof.Proof.Gen.KernelIdeal.Frame
import proofs.«173045_g29257317220559_cont_9to1_639_3_alg».proof.Proof.Payload
import proofs.«173045_g29257317220559_cont_9to1_639_3_alg».proof.Proof.Spec
import Idealize.ShloMosaic.Lib.Pipeline.Value

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat Cfg Window)

/- The contents of the core's buffers when the region is entered: everything below holds for any. -/
variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg1.N) : t.val < 50 := lt_of_lt_of_eq (show t.val < grid1.N from t.isLt) N_1

/-- The block index maps over the grid: the row-stripe windows sit at block (t, 0), the whole-array ones at (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The arrays the region reads: the two Laplacians, the three projections of the previous features. -/
abbrev Lu (c : Dev nD) := V c main_arg1
abbrev Ld (c : Dev nD) := V c main_arg2
abbrev Yu (c : Dev nD) := V c main_v0_0
abbrev Yd (c : Dev nD) := V c main_v0_1
abbrev Yi (c : Dev nD) := V c main_v0_2

/-- The layer's activation as a whole array. -/
abbrev Z (c : Dev nD) : Cert.Net.NF.Idx → EReal :=
  Cert.Net.act (Cert.Net.prop (Lu V c) (Yu V c)) (Cert.Net.prop (Ld V c) (Yd V c)) (Yi V c)

/-- Window 0's block at point `t` is rows 200·t … of its array. -/
theorem read_lu (c : Dev nD) (t : Fin cfg1.N) (p : Fin 200) (k : Fin 10000) :
    iblk1 V c 0 t (ix2 p k) = V c main_arg1 (ix2 ⟨t.val * 200 + p.val, by have := t_lt t; omega⟩ k) := by
  show V c main_arg1 (((cfg1.win 0).blk t).view.emb (ix2 p k)) = _
  refine congrArg (V c main_arg1) (funext fun a => Fin.ext ?_)
  have e := idx t
  match a with
  | ⟨0, _⟩ => show win1_0.index t (0 : Fin 2) * 200 + 1 * p.val = t.val * 200 + p.val; rw [e.1]; omega
  | ⟨1, _⟩ => show win1_0.index t (1 : Fin 2) * 10000 + 1 * k.val = k.val; rw [e.2.1]; omega

/-- Window 1's block at point `t` is rows 200·t … of its array. -/
theorem read_ld (c : Dev nD) (t : Fin cfg1.N) (p : Fin 200) (k : Fin 10000) :
    iblk1 V c 1 t (ix2 p k) = V c main_arg2 (ix2 ⟨t.val * 200 + p.val, by have := t_lt t; omega⟩ k) := by
  show V c main_arg2 (((cfg1.win 1).blk t).view.emb (ix2 p k)) = _
  refine congrArg (V c main_arg2) (funext fun a => Fin.ext ?_)
  have e := idx t
  match a with
  | ⟨0, _⟩ => show win1_1.index t (0 : Fin 2) * 200 + 1 * p.val = t.val * 200 + p.val; rw [e.2.2.1]; omega
  | ⟨1, _⟩ => show win1_1.index t (1 : Fin 2) * 10000 + 1 * k.val = k.val; rw [e.2.2.2.1]; omega

/-- Window 2's block is its whole array. -/
theorem read_yu (c : Dev nD) (t : Fin cfg1.N) (k : Fin 10000) (q : Fin 128) :
    iblk1 V c 2 t (ix2 k q) = V c main_v0_0 (ix2 k q) := by
  show V c main_v0_0 (((cfg1.win 2).blk t).view.emb (ix2 k q)) = _
  refine congrArg (V c main_v0_0) (funext fun a => Fin.ext ?_)
  have e := idx t
  match a with
  | ⟨0, _⟩ => show win1_2.index t (0 : Fin 2) * 10000 + 1 * k.val = k.val; rw [e.2.2.2.2.1]; omega
  | ⟨1, _⟩ => show win1_2.index t (1 : Fin 2) * 128 + 1 * q.val = q.val; rw [e.2.2.2.2.2.1]; omega

/-- Window 3's block is its whole array. -/
theorem read_yd (c : Dev nD) (t : Fin cfg1.N) (k : Fin 10000) (q : Fin 128) :
    iblk1 V c 3 t (ix2 k q) = V c main_v0_1 (ix2 k q) := by
  show V c main_v0_1 (((cfg1.win 3).blk t).view.emb (ix2 k q)) = _
  refine congrArg (V c main_v0_1) (funext fun a => Fin.ext ?_)
  have e := idx t
  match a with
  | ⟨0, _⟩ => show win1_3.index t (0 : Fin 2) * 10000 + 1 * k.val = k.val; rw [e.2.2.2.2.2.2.1]; omega
  | ⟨1, _⟩ => show win1_3.index t (1 : Fin 2) * 128 + 1 * q.val = q.val; rw [e.2.2.2.2.2.2.2.1]; omega

/-- Window 4's block at point `t` is rows 200·t … of its array. -/
theorem read_yi (c : Dev nD) (t : Fin cfg1.N) (p : Fin 200) (k : Fin 128) :
    iblk1 V c 4 t (ix2 p k) = V c main_v0_2 (ix2 ⟨t.val * 200 + p.val, by have := t_lt t; omega⟩ k) := by
  show V c main_v0_2 (((cfg1.win 4).blk t).view.emb (ix2 p k)) = _
  refine congrArg (V c main_v0_2) (funext fun a => Fin.ext ?_)
  have e := idx t
  match a with
  | ⟨0, _⟩ => show win1_4.index t (0 : Fin 2) * 200 + 1 * p.val = t.val * 200 + p.val; rw [e.2.2.2.2.2.2.2.2.1]; omega
  | ⟨1, _⟩ => show win1_4.index t (1 : Fin 2) * 128 + 1 * k.val = k.val; rw [e.2.2.2.2.2.2.2.2.2.1]; omega

/-- Window 5's block is its whole array. -/
theorem read_w5 (c : Dev nD) (t : Fin cfg1.N) (k : Fin 128) (q : Fin 128) :
    iblk1 V c 5 t (ix2 k q) = V c main_arg6 (ix2 k q) := by
  show V c main_arg6 (((cfg1.win 5).blk t).view.emb (ix2 k q)) = _
  refine congrArg (V c main_arg6) (funext fun a => Fin.ext ?_)
  have e := idx t
  match a with
  | ⟨0, _⟩ => show win1_5.index t (0 : Fin 2) * 128 + 1 * k.val = k.val; rw [e.2.2.2.2.2.2.2.2.2.2.1]; omega
  | ⟨1, _⟩ => show win1_5.index t (1 : Fin 2) * 128 + 1 * q.val = q.val; rw [e.2.2.2.2.2.2.2.2.2.2.2.1]; omega

/-- Window 6's block is its whole array. -/
theorem read_w6 (c : Dev nD) (t : Fin cfg1.N) (k : Fin 128) (q : Fin 128) :
    iblk1 V c 6 t (ix2 k q) = V c main_arg7 (ix2 k q) := by
  show V c main_arg7 (((cfg1.win 6).blk t).view.emb (ix2 k q)) = _
  refine congrArg (V c main_arg7) (funext fun a => Fin.ext ?_)
  have e := idx t
  match a with
  | ⟨0, _⟩ => show win1_6.index t (0 : Fin 2) * 128 + 1 * k.val = k.val; rw [e.2.2.2.2.2.2.2.2.2.2.2.2.1]; omega
  | ⟨1, _⟩ => show win1_6.index t (1 : Fin 2) * 128 + 1 * q.val = q.val; rw [e.2.2.2.2.2.2.2.2.2.2.2.2.2.1]; omega

/-- Window 7's block is its whole array. -/
theorem read_w7 (c : Dev nD) (t : Fin cfg1.N) (k : Fin 128) (q : Fin 128) :
    iblk1 V c 7 t (ix2 k q) = V c main_arg8 (ix2 k q) := by
  show V c main_arg8 (((cfg1.win 7).blk t).view.emb (ix2 k q)) = _
  refine congrArg (V c main_arg8) (funext fun a => Fin.ext ?_)
  have e := idx t
  match a with
  | ⟨0, _⟩ => show win1_7.index t (0 : Fin 2) * 128 + 1 * k.val = k.val; rw [e.2.2.2.2.2.2.2.2.2.2.2.2.2.2.1]; omega
  | ⟨1, _⟩ => show win1_7.index t (1 : Fin 2) * 128 + 1 * q.val = q.val; rw [e.2.2.2.2.2.2.2.2.2.2.2.2.2.2.2.1]; omega

/-- The activated stripe of point `t`, at (p, k), is the layer's activation at row 200·t + p. -/
theorem act_blk (c : Dev nD) (t : Fin cfg1.N) (p : Fin 200) (k : Fin 128) :
    Pay.actBlk (iblk1 V c 0 t) (iblk1 V c 1 t) (iblk1 V c 2 t) (iblk1 V c 3 t) (iblk1 V c 4 t) p k
      = Z V c (ix2 ⟨t.val * 200 + p.val, by have := t_lt t; omega⟩ k) := by
  unfold Pay.actBlk Z
  rw [Cert.Net.act_ix2, Cert.Net.prop_ix2, Cert.Net.prop_ix2, read_yi]
  refine congrArg Ideal.tanh (congrArg (· + _) (congrArg₂ (· + ·) ?_ ?_))
  · exact Finset.sum_congr rfl fun j _ => by rw [read_lu, read_yu]
  · exact Finset.sum_congr rfl fun j _ => by rw [read_ld, read_yd]

/-- What point `t` writes back through output window 8 is block `t` of the activation times the weight matrix. -/
theorem flushed8 (c : Dev nD) (t : Fin cfg1.N) :
    (dat1 V c).flushed 8 t
      = ((cfg1.win 8).blk t).view.read (Elt Ideal) (Cert.Net.proj (Z V c) (V c main_arg6)) := by
  show (cfg1.win 8).cut (grid1.coords t) ((dat1 V c).after 8 t) = _
  rw [after1_8]
  unfold out1_8
  rw [View.canon_unit_zero hz]
  simp only [View.ld_unit_zero (S := S200x10000) hz, View.ld_unit_zero (S := S10000x128) hz,
    View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg1.win 8).blk t).view.emb (ix2 p q)
      = (ix2 ⟨t.val * 200 + p.val, by have := t_lt t; omega⟩ q : S10000x128.Idx) := funext fun a => Fin.ext (by
    have e := idx t
    match a with
    | ⟨0, _⟩ => show win1_8.index t (0 : Fin 2) * 200 + 1 * p.val = t.val * 200 + p.val; rw [e.2.2.2.2.2.2.2.2.2.2.2.2.2.2.2.2.1]; omega
    | ⟨1, _⟩ => show win1_8.index t (1 : Fin 2) * 128 + 1 * q.val = q.val; rw [e.2.2.2.2.2.2.2.2.2.2.2.2.2.2.2.2.2.1]; omega)
  show k1_pay2 (iblk1 V c 0 t) (iblk1 V c 2 t) (iblk1 V c 1 t) (iblk1 V c 3 t) (iblk1 V c 4 t) (iblk1 V c 5 t) (ix2 p q)
    = Cert.Net.proj (Z V c) (V c main_arg6) (((cfg1.win 8).blk t).view.emb (ix2 p q))
  rw [hi, Cert.Net.proj_ix2]
  refine (Pay.layer1_store2 _ _ _ _ _ _ p q).trans (Finset.sum_congr rfl fun k _ => ?_)
  rw [act_blk, read_w5]

/-- An index of output 8's array is in point `t`'s block iff each coordinate is in the block's range. -/
theorem mem_blk8 (t : Fin cfg1.N) (i : S10000x128.Idx) :
    i ∈ ((cfg1.win 8).blk t).view.set ↔ ∀ a : Fin 2, win1_8.index t a * S200x128.size a ≤ (i a).val
      ∧ (i a).val < win1_8.index t a * S200x128.size a + S200x128.size a := by
  show i ∈ ((View.whole main_v1_0).slice (win1_8.rect t)).set ↔ _
  rw [View.set_slice_whole, Rect.mem_set_unit]
  exact Iff.rfl

/-- Row `r` of output 8 lies in the block of point `r / 200`. -/
theorem cover8 (i : S10000x128.Idx) :
    ∃ t : Fin cfg1.N, (cfg1.win 8).flush t = true ∧ i ∈ ((cfg1.win 8).blk t).view.set := by
  have hi0 : (i 0).val < 10000 := idx2_lt0 i
  have hi1 : (i 1).val < 128 := idx2_lt1 i
  have hN : (i 0).val / 200 < grid1.N := by rw [N_1]; omega
  refine ⟨⟨(i 0).val / 200, hN⟩, flush1_8 _, ?_⟩
  rw [mem_blk8]
  have e := idx ⟨(i 0).val / 200, hN⟩
  intro a
  match a with
  | ⟨0, _⟩ =>
    show win1_8.index ⟨(i 0).val / 200, hN⟩ (0 : Fin 2) * 200 ≤ (i 0).val
      ∧ (i 0).val < win1_8.index ⟨(i 0).val / 200, hN⟩ (0 : Fin 2) * 200 + 200
    rw [e.2.2.2.2.2.2.2.2.2.2.2.2.2.2.2.2.1]
    show (i 0).val / 200 * 200 ≤ (i 0).val ∧ (i 0).val < (i 0).val / 200 * 200 + 200
    omega
  | ⟨1, _⟩ =>
    show win1_8.index ⟨(i 0).val / 200, hN⟩ (1 : Fin 2) * 128 ≤ (i 1).val
      ∧ (i 1).val < win1_8.index ⟨(i 0).val / 200, hN⟩ (1 : Fin 2) * 128 + 128
    rw [e.2.2.2.2.2.2.2.2.2.2.2.2.2.2.2.2.2.1]
    omega

/-- Output 8's array after the region: the layer's activation times the weight matrix. -/
theorem final8 (c : Dev nD) : (dat1 V c).arrAt 8 cfg1.N = Cert.Net.proj (Z V c) (V c main_arg6) :=
  (dat1 V c).arrAt_eq_of_cover 8 _ (fun t _ => flushed8 V c t) cover8

/-- What point `t` writes back through output window 9 is block `t` of the activation times the weight matrix. -/
theorem flushed9 (c : Dev nD) (t : Fin cfg1.N) :
    (dat1 V c).flushed 9 t
      = ((cfg1.win 9).blk t).view.read (Elt Ideal) (Cert.Net.proj (Z V c) (V c main_arg7)) := by
  show (cfg1.win 9).cut (grid1.coords t) ((dat1 V c).after 9 t) = _
  rw [after1_9]
  unfold out1_9
  rw [View.canon_unit_zero hz]
  simp only [View.ld_unit_zero (S := S200x10000) hz, View.ld_unit_zero (S := S10000x128) hz,
    View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg1.win 9).blk t).view.emb (ix2 p q)
      = (ix2 ⟨t.val * 200 + p.val, by have := t_lt t; omega⟩ q : S10000x128.Idx) := funext fun a => Fin.ext (by
    have e := idx t
    match a with
    | ⟨0, _⟩ => show win1_9.index t (0 : Fin 2) * 200 + 1 * p.val = t.val * 200 + p.val; rw [e.2.2.2.2.2.2.2.2.2.2.2.2.2.2.2.2.2.2.1]; omega
    | ⟨1, _⟩ => show win1_9.index t (1 : Fin 2) * 128 + 1 * q.val = q.val; rw [e.2.2.2.2.2.2.2.2.2.2.2.2.2.2.2.2.2.2.2.1]; omega)
  show k1_pay3 (iblk1 V c 0 t) (iblk1 V c 2 t) (iblk1 V c 1 t) (iblk1 V c 3 t) (iblk1 V c 4 t) (iblk1 V c 6 t) (ix2 p q)
    = Cert.Net.proj (Z V c) (V c main_arg7) (((cfg1.win 9).blk t).view.emb (ix2 p q))
  rw [hi, Cert.Net.proj_ix2]
  refine (Pay.layer1_store3 _ _ _ _ _ _ p q).trans (Finset.sum_congr rfl fun k _ => ?_)
  rw [act_blk, read_w6]

/-- An index of output 9's array is in point `t`'s block iff each coordinate is in the block's range. -/
theorem mem_blk9 (t : Fin cfg1.N) (i : S10000x128.Idx) :
    i ∈ ((cfg1.win 9).blk t).view.set ↔ ∀ a : Fin 2, win1_9.index t a * S200x128.size a ≤ (i a).val
      ∧ (i a).val < win1_9.index t a * S200x128.size a + S200x128.size a := by
  show i ∈ ((View.whole main_v1_1).slice (win1_9.rect t)).set ↔ _
  rw [View.set_slice_whole, Rect.mem_set_unit]
  exact Iff.rfl

/-- Row `r` of output 9 lies in the block of point `r / 200`. -/
theorem cover9 (i : S10000x128.Idx) :
    ∃ t : Fin cfg1.N, (cfg1.win 9).flush t = true ∧ i ∈ ((cfg1.win 9).blk t).view.set := by
  have hi0 : (i 0).val < 10000 := idx2_lt0 i
  have hi1 : (i 1).val < 128 := idx2_lt1 i
  have hN : (i 0).val / 200 < grid1.N := by rw [N_1]; omega
  refine ⟨⟨(i 0).val / 200, hN⟩, flush1_9 _, ?_⟩
  rw [mem_blk9]
  have e := idx ⟨(i 0).val / 200, hN⟩
  intro a
  match a with
  | ⟨0, _⟩ =>
    show win1_9.index ⟨(i 0).val / 200, hN⟩ (0 : Fin 2) * 200 ≤ (i 0).val
      ∧ (i 0).val < win1_9.index ⟨(i 0).val / 200, hN⟩ (0 : Fin 2) * 200 + 200
    rw [e.2.2.2.2.2.2.2.2.2.2.2.2.2.2.2.2.2.2.1]
    show (i 0).val / 200 * 200 ≤ (i 0).val ∧ (i 0).val < (i 0).val / 200 * 200 + 200
    omega
  | ⟨1, _⟩ =>
    show win1_9.index ⟨(i 0).val / 200, hN⟩ (1 : Fin 2) * 128 ≤ (i 1).val
      ∧ (i 1).val < win1_9.index ⟨(i 0).val / 200, hN⟩ (1 : Fin 2) * 128 + 128
    rw [e.2.2.2.2.2.2.2.2.2.2.2.2.2.2.2.2.2.2.2.1]
    omega

/-- Output 9's array after the region: the layer's activation times the weight matrix. -/
theorem final9 (c : Dev nD) : (dat1 V c).arrAt 9 cfg1.N = Cert.Net.proj (Z V c) (V c main_arg7) :=
  (dat1 V c).arrAt_eq_of_cover 9 _ (fun t _ => flushed9 V c t) cover9

/-- What point `t` writes back through output window 10 is block `t` of the activation times the weight matrix. -/
theorem flushed10 (c : Dev nD) (t : Fin cfg1.N) :
    (dat1 V c).flushed 10 t
      = ((cfg1.win 10).blk t).view.read (Elt Ideal) (Cert.Net.proj (Z V c) (V c main_arg8)) := by
  show (cfg1.win 10).cut (grid1.coords t) ((dat1 V c).after 10 t) = _
  rw [after1_10]
  unfold out1_10
  rw [View.canon_unit_zero hz]
  simp only [View.ld_unit_zero (S := S200x10000) hz, View.ld_unit_zero (S := S10000x128) hz,
    View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg1.win 10).blk t).view.emb (ix2 p q)
      = (ix2 ⟨t.val * 200 + p.val, by have := t_lt t; omega⟩ q : S10000x128.Idx) := funext fun a => Fin.ext (by
    have e := idx t
    match a with
    | ⟨0, _⟩ => show win1_10.index t (0 : Fin 2) * 200 + 1 * p.val = t.val * 200 + p.val; rw [e.2.2.2.2.2.2.2.2.2.2.2.2.2.2.2.2.2.2.2.2.1]; omega
    | ⟨1, _⟩ => show win1_10.index t (1 : Fin 2) * 128 + 1 * q.val = q.val; rw [e.2.2.2.2.2.2.2.2.2.2.2.2.2.2.2.2.2.2.2.2.2]; omega)
  show k1_pay4 (iblk1 V c 0 t) (iblk1 V c 2 t) (iblk1 V c 1 t) (iblk1 V c 3 t) (iblk1 V c 4 t) (iblk1 V c 7 t) (ix2 p q)
    = Cert.Net.proj (Z V c) (V c main_arg8) (((cfg1.win 10).blk t).view.emb (ix2 p q))
  rw [hi, Cert.Net.proj_ix2]
  refine (Pay.layer1_store4 _ _ _ _ _ _ p q).trans (Finset.sum_congr rfl fun k _ => ?_)
  rw [act_blk, read_w7]

/-- An index of output 10's array is in point `t`'s block iff each coordinate is in the block's range. -/
theorem mem_blk10 (t : Fin cfg1.N) (i : S10000x128.Idx) :
    i ∈ ((cfg1.win 10).blk t).view.set ↔ ∀ a : Fin 2, win1_10.index t a * S200x128.size a ≤ (i a).val
      ∧ (i a).val < win1_10.index t a * S200x128.size a + S200x128.size a := by
  show i ∈ ((View.whole main_v1_2).slice (win1_10.rect t)).set ↔ _
  rw [View.set_slice_whole, Rect.mem_set_unit]
  exact Iff.rfl

/-- Row `r` of output 10 lies in the block of point `r / 200`. -/
theorem cover10 (i : S10000x128.Idx) :
    ∃ t : Fin cfg1.N, (cfg1.win 10).flush t = true ∧ i ∈ ((cfg1.win 10).blk t).view.set := by
  have hi0 : (i 0).val < 10000 := idx2_lt0 i
  have hi1 : (i 1).val < 128 := idx2_lt1 i
  have hN : (i 0).val / 200 < grid1.N := by rw [N_1]; omega
  refine ⟨⟨(i 0).val / 200, hN⟩, flush1_10 _, ?_⟩
  rw [mem_blk10]
  have e := idx ⟨(i 0).val / 200, hN⟩
  intro a
  match a with
  | ⟨0, _⟩ =>
    show win1_10.index ⟨(i 0).val / 200, hN⟩ (0 : Fin 2) * 200 ≤ (i 0).val
      ∧ (i 0).val < win1_10.index ⟨(i 0).val / 200, hN⟩ (0 : Fin 2) * 200 + 200
    rw [e.2.2.2.2.2.2.2.2.2.2.2.2.2.2.2.2.2.2.2.2.1]
    show (i 0).val / 200 * 200 ≤ (i 0).val ∧ (i 0).val < (i 0).val / 200 * 200 + 200
    omega
  | ⟨1, _⟩ =>
    show win1_10.index ⟨(i 0).val / 200, hN⟩ (1 : Fin 2) * 128 ≤ (i 1).val
      ∧ (i 1).val < win1_10.index ⟨(i 0).val / 200, hN⟩ (1 : Fin 2) * 128 + 128
    rw [e.2.2.2.2.2.2.2.2.2.2.2.2.2.2.2.2.2.2.2.2.2]
    omega

/-- Output 10's array after the region: the layer's activation times the weight matrix. -/
theorem final10 (c : Dev nD) : (dat1 V c).arrAt 10 cfg1.N = Cert.Net.proj (Z V c) (V c main_arg8) :=
  (dat1 V c).arrAt_eq_of_cover 10 _ (fun t _ => flushed10 V c t) cover10

end Cert.KernelIdeal.Reg1

end
-- ==== Proof.Region2.lean ====
/-
  A layer region as whole arrays. Its grid has 50 points; point `t` reads rows 200·t … 200·t + 199 of the two
  Laplacians and of the skip projection, the upper and lower projections and the three next weight matrices whole,
  and writes rows 200·t … of three outputs. After the region each output array is the layer's activation — `tanh` of
  the upper message plus the lower message plus the skip term — times its weight matrix, entry by entry, as a function
  of the arrays the region was entered with.
-/
import proofs.«173045_g29257317220559_cont_9to1_639_3_alg».proof.Proof.Gen.KernelIdeal.Frame
import proofs.«173045_g29257317220559_cont_9to1_639_3_alg».proof.Proof.Payload
import proofs.«173045_g29257317220559_cont_9to1_639_3_alg».proof.Proof.Spec
import Idealize.ShloMosaic.Lib.Pipeline.Value

noncomputable section

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat Cfg Window)

/- The contents of the core's buffers when the region is entered: everything below holds for any. -/
variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg2.N) : t.val < 50 := lt_of_lt_of_eq (show t.val < grid2.N from t.isLt) N_2

/-- The block index maps over the grid: the row-stripe windows sit at block (t, 0), the whole-array ones at (0, 0). -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-- The arrays the region reads: the two Laplacians, the three projections of the previous features. -/
abbrev Lu (c : Dev nD) := V c main_arg1
abbrev Ld (c : Dev nD) := V c main_arg2
abbrev Yu (c : Dev nD) := V c main_v1_0
abbrev Yd (c : Dev nD) := V c main_v1_1
abbrev Yi (c : Dev nD) := V c main_v1_2

/-- The layer's activation as a whole array. -/
abbrev Z (c : Dev nD) : Cert.Net.NF.Idx → EReal :=
  Cert.Net.act (Cert.Net.prop (Lu V c) (Yu V c)) (Cert.Net.prop (Ld V c) (Yd V c)) (Yi V c)

/-- Window 0's block at point `t` is rows 200·t … of its array. -/
theorem read_lu (c : Dev nD) (t : Fin cfg2.N) (p : Fin 200) (k : Fin 10000) :
    iblk2 V c 0 t (ix2 p k) = V c main_arg1 (ix2 ⟨t.val * 200 + p.val, by have := t_lt t; omega⟩ k) := by
  show V c main_arg1 (((cfg2.win 0).blk t).view.emb (ix2 p k)) = _
  refine congrArg (V c main_arg1) (funext fun a => Fin.ext ?_)
  have e := idx t
  match a with
  | ⟨0, _⟩ => show win2_0.index t (0 : Fin 2) * 200 + 1 * p.val = t.val * 200 + p.val; rw [e.1]; omega
  | ⟨1, _⟩ => show win2_0.index t (1 : Fin 2) * 10000 + 1 * k.val = k.val; rw [e.2.1]; omega

/-- Window 1's block at point `t` is rows 200·t … of its array. -/
theorem read_ld (c : Dev nD) (t : Fin cfg2.N) (p : Fin 200) (k : Fin 10000) :
    iblk2 V c 1 t (ix2 p k) = V c main_arg2 (ix2 ⟨t.val * 200 + p.val, by have := t_lt t; omega⟩ k) := by
  show V c main_arg2 (((cfg2.win 1).blk t).view.emb (ix2 p k)) = _
  refine congrArg (V c main_arg2) (funext fun a => Fin.ext ?_)
  have e := idx t
  match a with
  | ⟨0, _⟩ => show win2_1.index t (0 : Fin 2) * 200 + 1 * p.val = t.val * 200 + p.val; rw [e.2.2.1]; omega
  | ⟨1, _⟩ => show win2_1.index t (1 : Fin 2) * 10000 + 1 * k.val = k.val; rw [e.2.2.2.1]; omega

/-- Window 2's block is its whole array. -/
theorem read_yu (c : Dev nD) (t : Fin cfg2.N) (k : Fin 10000) (q : Fin 128) :
    iblk2 V c 2 t (ix2 k q) = V c main_v1_0 (ix2 k q) := by
  show V c main_v1_0 (((cfg2.win 2).blk t).view.emb (ix2 k q)) = _
  refine congrArg (V c main_v1_0) (funext fun a => Fin.ext ?_)
  have e := idx t
  match a with
  | ⟨0, _⟩ => show win2_2.index t (0 : Fin 2) * 10000 + 1 * k.val = k.val; rw [e.2.2.2.2.1]; omega
  | ⟨1, _⟩ => show win2_2.index t (1 : Fin 2) * 128 + 1 * q.val = q.val; rw [e.2.2.2.2.2.1]; omega

/-- Window 3's block is its whole array. -/
theorem read_yd (c : Dev nD) (t : Fin cfg2.N) (k : Fin 10000) (q : Fin 128) :
    iblk2 V c 3 t (ix2 k q) = V c main_v1_1 (ix2 k q) := by
  show V c main_v1_1 (((cfg2.win 3).blk t).view.emb (ix2 k q)) = _
  refine congrArg (V c main_v1_1) (funext fun a => Fin.ext ?_)
  have e := idx t
  match a with
  | ⟨0, _⟩ => show win2_3.index t (0 : Fin 2) * 10000 + 1 * k.val = k.val; rw [e.2.2.2.2.2.2.1]; omega
  | ⟨1, _⟩ => show win2_3.index t (1 : Fin 2) * 128 + 1 * q.val = q.val; rw [e.2.2.2.2.2.2.2.1]; omega

/-- Window 4's block at point `t` is rows 200·t … of its array. -/
theorem read_yi (c : Dev nD) (t : Fin cfg2.N) (p : Fin 200) (k : Fin 128) :
    iblk2 V c 4 t (ix2 p k) = V c main_v1_2 (ix2 ⟨t.val * 200 + p.val, by have := t_lt t; omega⟩ k) := by
  show V c main_v1_2 (((cfg2.win 4).blk t).view.emb (ix2 p k)) = _
  refine congrArg (V c main_v1_2) (funext fun a => Fin.ext ?_)
  have e := idx t
  match a with
  | ⟨0, _⟩ => show win2_4.index t (0 : Fin 2) * 200 + 1 * p.val = t.val * 200 + p.val; rw [e.2.2.2.2.2.2.2.2.1]; omega
  | ⟨1, _⟩ => show win2_4.index t (1 : Fin 2) * 128 + 1 * k.val = k.val; rw [e.2.2.2.2.2.2.2.2.2.1]; omega

/-- Window 5's block is its whole array. -/
theorem read_w5 (c : Dev nD) (t : Fin cfg2.N) (k : Fin 128) (q : Fin 128) :
    iblk2 V c 5 t (ix2 k q) = V c main_arg9 (ix2 k q) := by
  show V c main_arg9 (((cfg2.win 5).blk t).view.emb (ix2 k q)) = _
  refine congrArg (V c main_arg9) (funext fun a => Fin.ext ?_)
  have e := idx t
  match a with
  | ⟨0, _⟩ => show win2_5.index t (0 : Fin 2) * 128 + 1 * k.val = k.val; rw [e.2.2.2.2.2.2.2.2.2.2.1]; omega
  | ⟨1, _⟩ => show win2_5.index t (1 : Fin 2) * 128 + 1 * q.val = q.val; rw [e.2.2.2.2.2.2.2.2.2.2.2.1]; omega

/-- Window 6's block is its whole array. -/
theorem read_w6 (c : Dev nD) (t : Fin cfg2.N) (k : Fin 128) (q : Fin 128) :
    iblk2 V c 6 t (ix2 k q) = V c main_arg10 (ix2 k q) := by
  show V c main_arg10 (((cfg2.win 6).blk t).view.emb (ix2 k q)) = _
  refine congrArg (V c main_arg10) (funext fun a => Fin.ext ?_)
  have e := idx t
  match a with
  | ⟨0, _⟩ => show win2_6.index t (0 : Fin 2) * 128 + 1 * k.val = k.val; rw [e.2.2.2.2.2.2.2.2.2.2.2.2.1]; omega
  | ⟨1, _⟩ => show win2_6.index t (1 : Fin 2) * 128 + 1 * q.val = q.val; rw [e.2.2.2.2.2.2.2.2.2.2.2.2.2.1]; omega

/-- Window 7's block is its whole array. -/
theorem read_w7 (c : Dev nD) (t : Fin cfg2.N) (k : Fin 128) (q : Fin 128) :
    iblk2 V c 7 t (ix2 k q) = V c main_arg11 (ix2 k q) := by
  show V c main_arg11 (((cfg2.win 7).blk t).view.emb (ix2 k q)) = _
  refine congrArg (V c main_arg11) (funext fun a => Fin.ext ?_)
  have e := idx t
  match a with
  | ⟨0, _⟩ => show win2_7.index t (0 : Fin 2) * 128 + 1 * k.val = k.val; rw [e.2.2.2.2.2.2.2.2.2.2.2.2.2.2.1]; omega
  | ⟨1, _⟩ => show win2_7.index t (1 : Fin 2) * 128 + 1 * q.val = q.val; rw [e.2.2.2.2.2.2.2.2.2.2.2.2.2.2.2.1]; omega

/-- The activated stripe of point `t`, at (p, k), is the layer's activation at row 200·t + p. -/
theorem act_blk (c : Dev nD) (t : Fin cfg2.N) (p : Fin 200) (k : Fin 128) :
    Pay.actBlk (iblk2 V c 0 t) (iblk2 V c 1 t) (iblk2 V c 2 t) (iblk2 V c 3 t) (iblk2 V c 4 t) p k
      = Z V c (ix2 ⟨t.val * 200 + p.val, by have := t_lt t; omega⟩ k) := by
  unfold Pay.actBlk Z
  rw [Cert.Net.act_ix2, Cert.Net.prop_ix2, Cert.Net.prop_ix2, read_yi]
  refine congrArg Ideal.tanh (congrArg (· + _) (congrArg₂ (· + ·) ?_ ?_))
  · exact Finset.sum_congr rfl fun j _ => by rw [read_lu, read_yu]
  · exact Finset.sum_congr rfl fun j _ => by rw [read_ld, read_yd]

/-- What point `t` writes back through output window 8 is block `t` of the activation times the weight matrix. -/
theorem flushed8 (c : Dev nD) (t : Fin cfg2.N) :
    (dat2 V c).flushed 8 t
      = ((cfg2.win 8).blk t).view.read (Elt Ideal) (Cert.Net.proj (Z V c) (V c main_arg9)) := by
  show (cfg2.win 8).cut (grid2.coords t) ((dat2 V c).after 8 t) = _
  rw [after2_8]
  unfold out2_8
  rw [View.canon_unit_zero hz]
  simp only [View.ld_unit_zero (S := S200x10000) hz, View.ld_unit_zero (S := S10000x128) hz,
    View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg2.win 8).blk t).view.emb (ix2 p q)
      = (ix2 ⟨t.val * 200 + p.val, by have := t_lt t; omega⟩ q : S10000x128.Idx) := funext fun a => Fin.ext (by
    have e := idx t
    match a with
    | ⟨0, _⟩ => show win2_8.index t (0 : Fin 2) * 200 + 1 * p.val = t.val * 200 + p.val; rw [e.2.2.2.2.2.2.2.2.2.2.2.2.2.2.2.2.1]; omega
    | ⟨1, _⟩ => show win2_8.index t (1 : Fin 2) * 128 + 1 * q.val = q.val; rw [e.2.2.2.2.2.2.2.2.2.2.2.2.2.2.2.2.2.1]; omega)
  show k2_pay2 (iblk2 V c 0 t) (iblk2 V c 2 t) (iblk2 V c 1 t) (iblk2 V c 3 t) (iblk2 V c 4 t) (iblk2 V c 5 t) (ix2 p q)
    = Cert.Net.proj (Z V c) (V c main_arg9) (((cfg2.win 8).blk t).view.emb (ix2 p q))
  rw [hi, Cert.Net.proj_ix2]
  refine (Pay.layer2_store2 _ _ _ _ _ _ p q).trans (Finset.sum_congr rfl fun k _ => ?_)
  rw [act_blk, read_w5]

/-- An index of output 8's array is in point `t`'s block iff each coordinate is in the block's range. -/
theorem mem_blk8 (t : Fin cfg2.N) (i : S10000x128.Idx) :
    i ∈ ((cfg2.win 8).blk t).view.set ↔ ∀ a : Fin 2, win2_8.index t a * S200x128.size a ≤ (i a).val
      ∧ (i a).val < win2_8.index t a * S200x128.size a + S200x128.size a := by
  show i ∈ ((View.whole main_v2_0).slice (win2_8.rect t)).set ↔ _
  rw [View.set_slice_whole, Rect.mem_set_unit]
  exact Iff.rfl

/-- Row `r` of output 8 lies in the block of point `r / 200`. -/
theorem cover8 (i : S10000x128.Idx) :
    ∃ t : Fin cfg2.N, (cfg2.win 8).flush t = true ∧ i ∈ ((cfg2.win 8).blk t).view.set := by
  have hi0 : (i 0).val < 10000 := idx2_lt0 i
  have hi1 : (i 1).val < 128 := idx2_lt1 i
  have hN : (i 0).val / 200 < grid2.N := by rw [N_2]; omega
  refine ⟨⟨(i 0).val / 200, hN⟩, flush2_8 _, ?_⟩
  rw [mem_blk8]
  have e := idx ⟨(i 0).val / 200, hN⟩
  intro a
  match a with
  | ⟨0, _⟩ =>
    show win2_8.index ⟨(i 0).val / 200, hN⟩ (0 : Fin 2) * 200 ≤ (i 0).val
      ∧ (i 0).val < win2_8.index ⟨(i 0).val / 200, hN⟩ (0 : Fin 2) * 200 + 200
    rw [e.2.2.2.2.2.2.2.2.2.2.2.2.2.2.2.2.1]
    show (i 0).val / 200 * 200 ≤ (i 0).val ∧ (i 0).val < (i 0).val / 200 * 200 + 200
    omega
  | ⟨1, _⟩ =>
    show win2_8.index ⟨(i 0).val / 200, hN⟩ (1 : Fin 2) * 128 ≤ (i 1).val
      ∧ (i 1).val < win2_8.index ⟨(i 0).val / 200, hN⟩ (1 : Fin 2) * 128 + 128
    rw [e.2.2.2.2.2.2.2.2.2.2.2.2.2.2.2.2.2.1]
    omega

/-- Output 8's array after the region: the layer's activation times the weight matrix. -/
theorem final8 (c : Dev nD) : (dat2 V c).arrAt 8 cfg2.N = Cert.Net.proj (Z V c) (V c main_arg9) :=
  (dat2 V c).arrAt_eq_of_cover 8 _ (fun t _ => flushed8 V c t) cover8

/-- What point `t` writes back through output window 9 is block `t` of the activation times the weight matrix. -/
theorem flushed9 (c : Dev nD) (t : Fin cfg2.N) :
    (dat2 V c).flushed 9 t
      = ((cfg2.win 9).blk t).view.read (Elt Ideal) (Cert.Net.proj (Z V c) (V c main_arg10)) := by
  show (cfg2.win 9).cut (grid2.coords t) ((dat2 V c).after 9 t) = _
  rw [after2_9]
  unfold out2_9
  rw [View.canon_unit_zero hz]
  simp only [View.ld_unit_zero (S := S200x10000) hz, View.ld_unit_zero (S := S10000x128) hz,
    View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg2.win 9).blk t).view.emb (ix2 p q)
      = (ix2 ⟨t.val * 200 + p.val, by have := t_lt t; omega⟩ q : S10000x128.Idx) := funext fun a => Fin.ext (by
    have e := idx t
    match a with
    | ⟨0, _⟩ => show win2_9.index t (0 : Fin 2) * 200 + 1 * p.val = t.val * 200 + p.val; rw [e.2.2.2.2.2.2.2.2.2.2.2.2.2.2.2.2.2.2.1]; omega
    | ⟨1, _⟩ => show win2_9.index t (1 : Fin 2) * 128 + 1 * q.val = q.val; rw [e.2.2.2.2.2.2.2.2.2.2.2.2.2.2.2.2.2.2.2.1]; omega)
  show k2_pay3 (iblk2 V c 0 t) (iblk2 V c 2 t) (iblk2 V c 1 t) (iblk2 V c 3 t) (iblk2 V c 4 t) (iblk2 V c 6 t) (ix2 p q)
    = Cert.Net.proj (Z V c) (V c main_arg10) (((cfg2.win 9).blk t).view.emb (ix2 p q))
  rw [hi, Cert.Net.proj_ix2]
  refine (Pay.layer2_store3 _ _ _ _ _ _ p q).trans (Finset.sum_congr rfl fun k _ => ?_)
  rw [act_blk, read_w6]

/-- An index of output 9's array is in point `t`'s block iff each coordinate is in the block's range. -/
theorem mem_blk9 (t : Fin cfg2.N) (i : S10000x128.Idx) :
    i ∈ ((cfg2.win 9).blk t).view.set ↔ ∀ a : Fin 2, win2_9.index t a * S200x128.size a ≤ (i a).val
      ∧ (i a).val < win2_9.index t a * S200x128.size a + S200x128.size a := by
  show i ∈ ((View.whole main_v2_1).slice (win2_9.rect t)).set ↔ _
  rw [View.set_slice_whole, Rect.mem_set_unit]
  exact Iff.rfl

/-- Row `r` of output 9 lies in the block of point `r / 200`. -/
theorem cover9 (i : S10000x128.Idx) :
    ∃ t : Fin cfg2.N, (cfg2.win 9).flush t = true ∧ i ∈ ((cfg2.win 9).blk t).view.set := by
  have hi0 : (i 0).val < 10000 := idx2_lt0 i
  have hi1 : (i 1).val < 128 := idx2_lt1 i
  have hN : (i 0).val / 200 < grid2.N := by rw [N_2]; omega
  refine ⟨⟨(i 0).val / 200, hN⟩, flush2_9 _, ?_⟩
  rw [mem_blk9]
  have e := idx ⟨(i 0).val / 200, hN⟩
  intro a
  match a with
  | ⟨0, _⟩ =>
    show win2_9.index ⟨(i 0).val / 200, hN⟩ (0 : Fin 2) * 200 ≤ (i 0).val
      ∧ (i 0).val < win2_9.index ⟨(i 0).val / 200, hN⟩ (0 : Fin 2) * 200 + 200
    rw [e.2.2.2.2.2.2.2.2.2.2.2.2.2.2.2.2.2.2.1]
    show (i 0).val / 200 * 200 ≤ (i 0).val ∧ (i 0).val < (i 0).val / 200 * 200 + 200
    omega
  | ⟨1, _⟩ =>
    show win2_9.index ⟨(i 0).val / 200, hN⟩ (1 : Fin 2) * 128 ≤ (i 1).val
      ∧ (i 1).val < win2_9.index ⟨(i 0).val / 200, hN⟩ (1 : Fin 2) * 128 + 128
    rw [e.2.2.2.2.2.2.2.2.2.2.2.2.2.2.2.2.2.2.2.1]
    omega

/-- Output 9's array after the region: the layer's activation times the weight matrix. -/
theorem final9 (c : Dev nD) : (dat2 V c).arrAt 9 cfg2.N = Cert.Net.proj (Z V c) (V c main_arg10) :=
  (dat2 V c).arrAt_eq_of_cover 9 _ (fun t _ => flushed9 V c t) cover9

/-- What point `t` writes back through output window 10 is block `t` of the activation times the weight matrix. -/
theorem flushed10 (c : Dev nD) (t : Fin cfg2.N) :
    (dat2 V c).flushed 10 t
      = ((cfg2.win 10).blk t).view.read (Elt Ideal) (Cert.Net.proj (Z V c) (V c main_arg11)) := by
  show (cfg2.win 10).cut (grid2.coords t) ((dat2 V c).after 10 t) = _
  rw [after2_10]
  unfold out2_10
  rw [View.canon_unit_zero hz]
  simp only [View.ld_unit_zero (S := S200x10000) hz, View.ld_unit_zero (S := S10000x128) hz,
    View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg2.win 10).blk t).view.emb (ix2 p q)
      = (ix2 ⟨t.val * 200 + p.val, by have := t_lt t; omega⟩ q : S10000x128.Idx) := funext fun a => Fin.ext (by
    have e := idx t
    match a with
    | ⟨0, _⟩ => show win2_10.index t (0 : Fin 2) * 200 + 1 * p.val = t.val * 200 + p.val; rw [e.2.2.2.2.2.2.2.2.2.2.2.2.2.2.2.2.2.2.2.2.1]; omega
    | ⟨1, _⟩ => show win2_10.index t (1 : Fin 2) * 128 + 1 * q.val = q.val; rw [e.2.2.2.2.2.2.2.2.2.2.2.2.2.2.2.2.2.2.2.2.2]; omega)
  show k2_pay4 (iblk2 V c 0 t) (iblk2 V c 2 t) (iblk2 V c 1 t) (iblk2 V c 3 t) (iblk2 V c 4 t) (iblk2 V c 7 t) (ix2 p q)
    = Cert.Net.proj (Z V c) (V c main_arg11) (((cfg2.win 10).blk t).view.emb (ix2 p q))
  rw [hi, Cert.Net.proj_ix2]
  refine (Pay.layer2_store4 _ _ _ _ _ _ p q).trans (Finset.sum_congr rfl fun k _ => ?_)
  rw [act_blk, read_w7]

/-- An index of output 10's array is in point `t`'s block iff each coordinate is in the block's range. -/
theorem mem_blk10 (t : Fin cfg2.N) (i : S10000x128.Idx) :
    i ∈ ((cfg2.win 10).blk t).view.set ↔ ∀ a : Fin 2, win2_10.index t a * S200x128.size a ≤ (i a).val
      ∧ (i a).val < win2_10.index t a * S200x128.size a + S200x128.size a := by
  show i ∈ ((View.whole main_v2_2).slice (win2_10.rect t)).set ↔ _
  rw [View.set_slice_whole, Rect.mem_set_unit]
  exact Iff.rfl

/-- Row `r` of output 10 lies in the block of point `r / 200`. -/
theorem cover10 (i : S10000x128.Idx) :
    ∃ t : Fin cfg2.N, (cfg2.win 10).flush t = true ∧ i ∈ ((cfg2.win 10).blk t).view.set := by
  have hi0 : (i 0).val < 10000 := idx2_lt0 i
  have hi1 : (i 1).val < 128 := idx2_lt1 i
  have hN : (i 0).val / 200 < grid2.N := by rw [N_2]; omega
  refine ⟨⟨(i 0).val / 200, hN⟩, flush2_10 _, ?_⟩
  rw [mem_blk10]
  have e := idx ⟨(i 0).val / 200, hN⟩
  intro a
  match a with
  | ⟨0, _⟩ =>
    show win2_10.index ⟨(i 0).val / 200, hN⟩ (0 : Fin 2) * 200 ≤ (i 0).val
      ∧ (i 0).val < win2_10.index ⟨(i 0).val / 200, hN⟩ (0 : Fin 2) * 200 + 200
    rw [e.2.2.2.2.2.2.2.2.2.2.2.2.2.2.2.2.2.2.2.2.1]
    show (i 0).val / 200 * 200 ≤ (i 0).val ∧ (i 0).val < (i 0).val / 200 * 200 + 200
    omega
  | ⟨1, _⟩ =>
    show win2_10.index ⟨(i 0).val / 200, hN⟩ (1 : Fin 2) * 128 ≤ (i 1).val
      ∧ (i 1).val < win2_10.index ⟨(i 0).val / 200, hN⟩ (1 : Fin 2) * 128 + 128
    rw [e.2.2.2.2.2.2.2.2.2.2.2.2.2.2.2.2.2.2.2.2.2]
    omega

/-- Output 10's array after the region: the layer's activation times the weight matrix. -/
theorem final10 (c : Dev nD) : (dat2 V c).arrAt 10 cfg2.N = Cert.Net.proj (Z V c) (V c main_arg11) :=
  (dat2 V c).arrAt_eq_of_cover 10 _ (fun t _ => flushed10 V c t) cover10

end Cert.KernelIdeal.Reg2

end
-- ==== Proof.Region3.lean ====
/-
  The last region as a whole array. Point `t` of its 50 reads rows 200·t … 200·t + 199 of the two Laplacians and of
  the skip projection, the upper and lower projections and the last weight matrix whole, and writes rows 200·t … of the
  result: the layer's activation times the weight matrix, each row divided by its floored Euclidean norm, through
  `tanh`. A row's norm needs that row only, so the stripes of the result are the stripes of one whole-array function.
-/
import proofs.«173045_g29257317220559_cont_9to1_639_3_alg».proof.Proof.Gen.KernelIdeal.Frame
import proofs.«173045_g29257317220559_cont_9to1_639_3_alg».proof.Proof.Payload
import proofs.«173045_g29257317220559_cont_9to1_639_3_alg».proof.Proof.Spec
import Idealize.ShloMosaic.Lib.Pipeline.Value

noncomputable section

namespace Cert.KernelIdeal.Reg3

open Cert.KernelIdeal Cert.KernelIdeal.Gen Idealize.ShloMosaic Idealize.ShloMosaic.TcCoe Idealize.ShloMosaic.ValueIdx Idealize.SL.Sem
open Idealize.ShloMosaic.Pipeline (Dat Cfg Window)

/- The contents of the core's buffers when the region is entered: everything below holds for any. -/
variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg3.N) : t.val < 50 := lt_of_lt_of_eq (show t.val < grid3.N from t.isLt) N_3

/-- The block index maps over the grid: the row-stripe windows sit at block (t, 0), the whole-array ones at (0, 0). -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The arrays the region reads: the two Laplacians, the three projections of the previous features. -/
abbrev Lu (c : Dev nD) := V c main_arg1
abbrev Ld (c : Dev nD) := V c main_arg2
abbrev Yu (c : Dev nD) := V c main_v2_0
abbrev Yd (c : Dev nD) := V c main_v2_1
abbrev Yi (c : Dev nD) := V c main_v2_2

/-- The layer's activation, and its last projection, as whole arrays. -/
abbrev Z (c : Dev nD) : Cert.Net.NF.Idx → EReal :=
  Cert.Net.act (Cert.Net.prop (Lu V c) (Yu V c)) (Cert.Net.prop (Ld V c) (Yd V c)) (Yi V c)
abbrev G (c : Dev nD) : Cert.Net.NF.Idx → EReal := Cert.Net.proj (Z V c) (V c main_arg12)

/-- Window 0's block at point `t` is rows 200·t … of its array. -/
theorem read_lu (c : Dev nD) (t : Fin cfg3.N) (p : Fin 200) (k : Fin 10000) :
    iblk3 V c 0 t (ix2 p k) = V c main_arg1 (ix2 ⟨t.val * 200 + p.val, by have := t_lt t; omega⟩ k) := by
  show V c main_arg1 (((cfg3.win 0).blk t).view.emb (ix2 p k)) = _
  refine congrArg (V c main_arg1) (funext fun a => Fin.ext ?_)
  have e := idx t
  match a with
  | ⟨0, _⟩ => show win3_0.index t (0 : Fin 2) * 200 + 1 * p.val = t.val * 200 + p.val; rw [e.1]; omega
  | ⟨1, _⟩ => show win3_0.index t (1 : Fin 2) * 10000 + 1 * k.val = k.val; rw [e.2.1]; omega

/-- Window 1's block at point `t` is rows 200·t … of its array. -/
theorem read_ld (c : Dev nD) (t : Fin cfg3.N) (p : Fin 200) (k : Fin 10000) :
    iblk3 V c 1 t (ix2 p k) = V c main_arg2 (ix2 ⟨t.val * 200 + p.val, by have := t_lt t; omega⟩ k) := by
  show V c main_arg2 (((cfg3.win 1).blk t).view.emb (ix2 p k)) = _
  refine congrArg (V c main_arg2) (funext fun a => Fin.ext ?_)
  have e := idx t
  match a with
  | ⟨0, _⟩ => show win3_1.index t (0 : Fin 2) * 200 + 1 * p.val = t.val * 200 + p.val; rw [e.2.2.1]; omega
  | ⟨1, _⟩ => show win3_1.index t (1 : Fin 2) * 10000 + 1 * k.val = k.val; rw [e.2.2.2.1]; omega

/-- Window 2's block is its whole array. -/
theorem read_yu (c : Dev nD) (t : Fin cfg3.N) (k : Fin 10000) (q : Fin 128) :
    iblk3 V c 2 t (ix2 k q) = V c main_v2_0 (ix2 k q) := by
  show V c main_v2_0 (((cfg3.win 2).blk t).view.emb (ix2 k q)) = _
  refine congrArg (V c main_v2_0) (funext fun a => Fin.ext ?_)
  have e := idx t
  match a with
  | ⟨0, _⟩ => show win3_2.index t (0 : Fin 2) * 10000 + 1 * k.val = k.val; rw [e.2.2.2.2.1]; omega
  | ⟨1, _⟩ => show win3_2.index t (1 : Fin 2) * 128 + 1 * q.val = q.val; rw [e.2.2.2.2.2.1]; omega

/-- Window 3's block is its whole array. -/
theorem read_yd (c : Dev nD) (t : Fin cfg3.N) (k : Fin 10000) (q : Fin 128) :
    iblk3 V c 3 t (ix2 k q) = V c main_v2_1 (ix2 k q) := by
  show V c main_v2_1 (((cfg3.win 3).blk t).view.emb (ix2 k q)) = _
  refine congrArg (V c main_v2_1) (funext fun a => Fin.ext ?_)
  have e := idx t
  match a with
  | ⟨0, _⟩ => show win3_3.index t (0 : Fin 2) * 10000 + 1 * k.val = k.val; rw [e.2.2.2.2.2.2.1]; omega
  | ⟨1, _⟩ => show win3_3.index t (1 : Fin 2) * 128 + 1 * q.val = q.val; rw [e.2.2.2.2.2.2.2.1]; omega

/-- Window 4's block at point `t` is rows 200·t … of its array. -/
theorem read_yi (c : Dev nD) (t : Fin cfg3.N) (p : Fin 200) (k : Fin 128) :
    iblk3 V c 4 t (ix2 p k) = V c main_v2_2 (ix2 ⟨t.val * 200 + p.val, by have := t_lt t; omega⟩ k) := by
  show V c main_v2_2 (((cfg3.win 4).blk t).view.emb (ix2 p k)) = _
  refine congrArg (V c main_v2_2) (funext fun a => Fin.ext ?_)
  have e := idx t
  match a with
  | ⟨0, _⟩ => show win3_4.index t (0 : Fin 2) * 200 + 1 * p.val = t.val * 200 + p.val; rw [e.2.2.2.2.2.2.2.2.1]; omega
  | ⟨1, _⟩ => show win3_4.index t (1 : Fin 2) * 128 + 1 * k.val = k.val; rw [e.2.2.2.2.2.2.2.2.2.1]; omega

/-- Window 5's block is its whole array. -/
theorem read_w5 (c : Dev nD) (t : Fin cfg3.N) (k : Fin 128) (q : Fin 128) :
    iblk3 V c 5 t (ix2 k q) = V c main_arg12 (ix2 k q) := by
  show V c main_arg12 (((cfg3.win 5).blk t).view.emb (ix2 k q)) = _
  refine congrArg (V c main_arg12) (funext fun a => Fin.ext ?_)
  have e := idx t
  match a with
  | ⟨0, _⟩ => show win3_5.index t (0 : Fin 2) * 128 + 1 * k.val = k.val; rw [e.2.2.2.2.2.2.2.2.2.2.1]; omega
  | ⟨1, _⟩ => show win3_5.index t (1 : Fin 2) * 128 + 1 * q.val = q.val; rw [e.2.2.2.2.2.2.2.2.2.2.2.1]; omega

/-- The activated stripe of point `t`, at (p, k), is the layer's activation at row 200·t + p. -/
theorem act_blk (c : Dev nD) (t : Fin cfg3.N) (p : Fin 200) (k : Fin 128) :
    Pay.actBlk (iblk3 V c 0 t) (iblk3 V c 1 t) (iblk3 V c 2 t) (iblk3 V c 3 t) (iblk3 V c 4 t) p k
      = Z V c (ix2 ⟨t.val * 200 + p.val, by have := t_lt t; omega⟩ k) := by
  unfold Pay.actBlk Z
  rw [Cert.Net.act_ix2, Cert.Net.prop_ix2, Cert.Net.prop_ix2, read_yi]
  refine congrArg Ideal.tanh (congrArg (· + _) (congrArg₂ (· + ·) ?_ ?_))
  · exact Finset.sum_congr rfl fun j _ => by rw [read_lu, read_yu]
  · exact Finset.sum_congr rfl fun j _ => by rw [read_ld, read_yd]

/-- The projected stripe of point `t`, at (p, q), is the last projection at row 200·t + p. -/
theorem proj_blk (c : Dev nD) (t : Fin cfg3.N) (p : Fin 200) (q : Fin 128) :
    matmul (φ₁ := .f32) (φ₂ := .f32) Pay.dFeat none (Pay.actVec (iblk3 V c 0 t) (iblk3 V c 1 t) (iblk3 V c 2 t) (iblk3 V c 3 t) (iblk3 V c 4 t))
        (iblk3 V c 5 t) (constant (F := Ideal) S200x128 .f32 0x00000000#32) (ix2 p q)
      = G V c (ix2 ⟨t.val * 200 + p.val, by have := t_lt t; omega⟩ q) := by
  unfold G
  rw [Cert.Net.proj_ix2]
  refine (Pay.actVec_mm _ _ _ _ _ _ p q).trans (Finset.sum_congr rfl fun k _ => ?_)
  rw [act_blk, read_w5]

/-- What point `t` writes back is block `t` of the normalised last projection. -/
theorem flushed6 (c : Dev nD) (t : Fin cfg3.N) :
    (dat3 V c).flushed 6 t = ((cfg3.win 6).blk t).view.read (Elt Ideal) (Cert.Net.tail (G V c)) := by
  show (cfg3.win 6).cut (grid3.coords t) ((dat3 V c).after 6 t) = _
  rw [after3_6]
  unfold out3_6
  rw [View.canon_unit_zero hz]
  simp only [View.ld_unit_zero (S := S200x10000) hz, View.ld_unit_zero (S := S10000x128) hz,
    View.ld_unit_zero (S := S200x128) hz, View.ld_unit_zero (S := S128x128) hz]
  refine funext fun (j : S200x128.Idx) => ?_
  obtain ⟨p, q, rfl⟩ : ∃ (p : Fin 200) (q : Fin 128), j = ix2 p q := ⟨j 0, j 1, eq_ix2 j⟩
  have hi : ((cfg3.win 6).blk t).view.emb (ix2 p q)
      = (ix2 ⟨t.val * 200 + p.val, by have := t_lt t; omega⟩ q : S10000x128.Idx) := funext fun a => Fin.ext (by
    have e := idx t
    match a with
    | ⟨0, _⟩ => show win3_6.index t (0 : Fin 2) * 200 + 1 * p.val = t.val * 200 + p.val; rw [e.2.2.2.2.2.2.2.2.2.2.2.2.1]; omega
    | ⟨1, _⟩ => show win3_6.index t (1 : Fin 2) * 128 + 1 * q.val = q.val; rw [e.2.2.2.2.2.2.2.2.2.2.2.2.2]; omega)
  show k3_pay1 (F := Ideal) (iblk3 V c 0 t) (iblk3 V c 2 t) (iblk3 V c 1 t) (iblk3 V c 3 t) (iblk3 V c 4 t) (iblk3 V c 5 t) (ix2 p q)
    = Cert.Net.tail (G V c) (((cfg3.win 6).blk t).view.emb (ix2 p q))
  rw [hi, Cert.Net.tail_ix2]
  refine (congrFun (Pay.final_store _ _ _ _ _ _) (ix2 p q)).trans ((Pay.tailVec_apply _ p q).trans ?_)
  exact congrArg Ideal.tanh (congrArg₂ Ideal.div (proj_blk V c t p q)
    (congrArg (fun x => max x Cert.Net.eps) (congrArg Ideal.sqrt
      (Finset.sum_congr rfl fun k _ => by rw [proj_blk V c t p k]))))

/-- An index of the result's array is in point `t`'s block iff each coordinate is in the block's range. -/
theorem mem_blk6 (t : Fin cfg3.N) (i : S10000x128.Idx) :
    i ∈ ((cfg3.win 6).blk t).view.set ↔ ∀ a : Fin 2, win3_6.index t a * S200x128.size a ≤ (i a).val
      ∧ (i a).val < win3_6.index t a * S200x128.size a + S200x128.size a := by
  show i ∈ ((View.whole main_v3).slice (win3_6.rect t)).set ↔ _
  rw [View.set_slice_whole, Rect.mem_set_unit]
  exact Iff.rfl

/-- Row `r` of the result lies in the block of point `r / 200`. -/
theorem cover6 (i : S10000x128.Idx) :
    ∃ t : Fin cfg3.N, (cfg3.win 6).flush t = true ∧ i ∈ ((cfg3.win 6).blk t).view.set := by
  have hi0 : (i 0).val < 10000 := idx2_lt0 i
  have hi1 : (i 1).val < 128 := idx2_lt1 i
  have hN : (i 0).val / 200 < grid3.N := by rw [N_3]; omega
  refine ⟨⟨(i 0).val / 200, hN⟩, flush3_6 _, ?_⟩
  rw [mem_blk6]
  have e := idx ⟨(i 0).val / 200, hN⟩
  intro a
  match a with
  | ⟨0, _⟩ =>
    show win3_6.index ⟨(i 0).val / 200, hN⟩ (0 : Fin 2) * 200 ≤ (i 0).val
      ∧ (i 0).val < win3_6.index ⟨(i 0).val / 200, hN⟩ (0 : Fin 2) * 200 + 200
    rw [e.2.2.2.2.2.2.2.2.2.2.2.2.1]
    show (i 0).val / 200 * 200 ≤ (i 0).val ∧ (i 0).val < (i 0).val / 200 * 200 + 200
    omega
  | ⟨1, _⟩ =>
    show win3_6.index ⟨(i 0).val / 200, hN⟩ (1 : Fin 2) * 128 ≤ (i 1).val
      ∧ (i 1).val < win3_6.index ⟨(i 0).val / 200, hN⟩ (1 : Fin 2) * 128 + 128
    rw [e.2.2.2.2.2.2.2.2.2.2.2.2.2]
    omega

/-- The result's array after the region: the normalised last projection of the layer's activation. -/
theorem final6 (c : Dev nD) : (dat3 V c).arrAt 6 cfg3.N = Cert.Net.tail (G V c) :=
  (dat3 V c).arrAt_eq_of_cover 6 _ (fun t _ => flushed6 V c t) cover6

end Cert.KernelIdeal.Reg3

end
-- ==== Proof.Chain.lean ====
/-
  The four regions in a row. Between regions the core's buffers hold: every array a region writes at what the region
  left, every other buffer what it held before. Followed back from each region's entry to the launch, the two
  Laplacians and the weights are the launch arguments, and the three projections a region reads are what the region
  before it wrote. So the first layer region acts on the projections of the input features, the second on the
  projections of the first layer's activation, the last on those of the second; the result buffer ends at the
  specification's network of the thirteen arguments.
-/
import proofs.«173045_g29257317220559_cont_9to1_639_3_alg».proof.Proof.Gen.KernelIdeal.Frame
import proofs.«173045_g29257317220559_cont_9to1_639_3_alg».proof.Proof.Region0
import proofs.«173045_g29257317220559_cont_9to1_639_3_alg».proof.Proof.Region1
import proofs.«173045_g29257317220559_cont_9to1_639_3_alg».proof.Proof.Region2
import proofs.«173045_g29257317220559_cont_9to1_639_3_alg».proof.Proof.Region3
import proofs.«173045_g29257317220559_cont_9to1_639_3_alg».proof.Proof.Spec

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- A buffer's contents at launch. -/
abbrev arg (k : Ref sig .tc) : Buf (Elt Ideal) ((c : Thread nD τ).loc k) := m ((c : Thread nD τ).loc k)

/-- The activations of the three layers, as functions of the launch arguments. -/
abbrev z1 : Cert.Net.NF.Idx → EReal := Cert.Net.layer (arg m c main_arg1) (arg m c main_arg2) (arg m c main_arg0) (arg m c main_arg3) (arg m c main_arg4) (arg m c main_arg5)
abbrev z2 : Cert.Net.NF.Idx → EReal := Cert.Net.layer (arg m c main_arg1) (arg m c main_arg2) (z1 m c) (arg m c main_arg6) (arg m c main_arg7) (arg m c main_arg8)
abbrev z3 : Cert.Net.NF.Idx → EReal := Cert.Net.layer (arg m c main_arg1) (arg m c main_arg2) (z2 m c) (arg m c main_arg9) (arg m c main_arg10) (arg m c main_arg11)

/-! ## Entering the first layer region -/

theorem V1_arg1 : V1 m ρ c main_arg1 = arg m c main_arg1 := W1_of_ne m ρ c main_arg1 (by decide)
theorem V1_arg2 : V1 m ρ c main_arg2 = arg m c main_arg2 := W1_of_ne m ρ c main_arg2 (by decide)
theorem V1_arg6 : V1 m ρ c main_arg6 = arg m c main_arg6 := W1_of_ne m ρ c main_arg6 (by decide)
theorem V1_arg7 : V1 m ρ c main_arg7 = arg m c main_arg7 := W1_of_ne m ρ c main_arg7 (by decide)
theorem V1_arg8 : V1 m ρ c main_arg8 = arg m c main_arg8 := W1_of_ne m ρ c main_arg8 (by decide)
/-- The projection region left the input features times each of the first layer's weight matrices. -/
theorem V1_yu : V1 m ρ c main_v0_0 = Cert.Net.proj (arg m c main_arg0) (arg m c main_arg3) := (W1_arr m ρ c 4).trans (Reg0.final4 (V0 m ρ) c)
theorem V1_yd : V1 m ρ c main_v0_1 = Cert.Net.proj (arg m c main_arg0) (arg m c main_arg4) := (W1_arr m ρ c 5).trans (Reg0.final5 (V0 m ρ) c)
theorem V1_yi : V1 m ρ c main_v0_2 = Cert.Net.proj (arg m c main_arg0) (arg m c main_arg5) := (W1_arr m ρ c 6).trans (Reg0.final6 (V0 m ρ) c)

/-- So the first layer region's activation is the first layer of the input features. -/
theorem act1 : Reg1.Z (V1 m ρ) c = z1 m c := by
  unfold Reg1.Z Reg1.Lu Reg1.Ld Reg1.Yu Reg1.Yd Reg1.Yi
  rw [V1_arg1, V1_arg2, V1_yu, V1_yd, V1_yi]
  rfl

/-! ## Entering the second layer region -/

theorem V2_arg1 : V2 m ρ c main_arg1 = arg m c main_arg1 :=
  ((W2_arr m ρ c 0).trans (((dat1 (V1 m ρ) c).arrAt_in 0 rfl _).trans (A_eq1 (V1 m ρ) c 0))).trans (V1_arg1 m ρ c)
theorem V2_arg2 : V2 m ρ c main_arg2 = arg m c main_arg2 :=
  ((W2_arr m ρ c 1).trans (((dat1 (V1 m ρ) c).arrAt_in 1 rfl _).trans (A_eq1 (V1 m ρ) c 1))).trans (V1_arg2 m ρ c)
theorem V2_arg9 : V2 m ρ c main_arg9 = arg m c main_arg9 :=
  (W2_of_ne m ρ c main_arg9 (by decide)).trans (W1_of_ne m ρ c main_arg9 (by decide))
theorem V2_arg10 : V2 m ρ c main_arg10 = arg m c main_arg10 :=
  (W2_of_ne m ρ c main_arg10 (by decide)).trans (W1_of_ne m ρ c main_arg10 (by decide))
theorem V2_arg11 : V2 m ρ c main_arg11 = arg m c main_arg11 :=
  (W2_of_ne m ρ c main_arg11 (by decide)).trans (W1_of_ne m ρ c main_arg11 (by decide))
/-- The first layer region left its activation times each of the second layer's weight matrices. -/
theorem V2_yu : V2 m ρ c main_v1_0 = Cert.Net.proj (z1 m c) (arg m c main_arg6) :=
  (W2_arr m ρ c 8).trans ((Reg1.final8 (V1 m ρ) c).trans (by rw [act1, V1_arg6]))
theorem V2_yd : V2 m ρ c main_v1_1 = Cert.Net.proj (z1 m c) (arg m c main_arg7) :=
  (W2_arr m ρ c 9).trans ((Reg1.final9 (V1 m ρ) c).trans (by rw [act1, V1_arg7]))
theorem V2_yi : V2 m ρ c main_v1_2 = Cert.Net.proj (z1 m c) (arg m c main_arg8) :=
  (W2_arr m ρ c 10).trans ((Reg1.final10 (V1 m ρ) c).trans (by rw [act1, V1_arg8]))

/-- So the second layer region's activation is the second layer. -/
theorem act2 : Reg2.Z (V2 m ρ) c = z2 m c := by
  unfold Reg2.Z Reg2.Lu Reg2.Ld Reg2.Yu Reg2.Yd Reg2.Yi
  rw [V2_arg1, V2_arg2, V2_yu, V2_yd, V2_yi]
  rfl

/-! ## Entering the last region -/

theorem V3_arg1 : V3 m ρ c main_arg1 = arg m c main_arg1 :=
  ((W3_arr m ρ c 0).trans (((dat2 (V2 m ρ) c).arrAt_in 0 rfl _).trans (A_eq2 (V2 m ρ) c 0))).trans (V2_arg1 m ρ c)
theorem V3_arg2 : V3 m ρ c main_arg2 = arg m c main_arg2 :=
  ((W3_arr m ρ c 1).trans (((dat2 (V2 m ρ) c).arrAt_in 1 rfl _).trans (A_eq2 (V2 m ρ) c 1))).trans (V2_arg2 m ρ c)
theorem V3_arg12 : V3 m ρ c main_arg12 = arg m c main_arg12 :=
  (W3_of_ne m ρ c main_arg12 (by decide)).trans ((W2_of_ne m ρ c main_arg12 (by decide)).trans (W1_of_ne m ρ c main_arg12 (by decide)))
/-- The second layer region left its activation times each of the third layer's weight matrices. -/
theorem V3_yu : V3 m ρ c main_v2_0 = Cert.Net.proj (z2 m c) (arg m c main_arg9) :=
  (W3_arr m ρ c 8).trans ((Reg2.final8 (V2 m ρ) c).trans (by rw [act2, V2_arg9]))
theorem V3_yd : V3 m ρ c main_v2_1 = Cert.Net.proj (z2 m c) (arg m c main_arg10) :=
  (W3_arr m ρ c 9).trans ((Reg2.final9 (V2 m ρ) c).trans (by rw [act2, V2_arg10]))
theorem V3_yi : V3 m ρ c main_v2_2 = Cert.Net.proj (z2 m c) (arg m c main_arg11) :=
  (W3_arr m ρ c 10).trans ((Reg2.final10 (V2 m ρ) c).trans (by rw [act2, V2_arg11]))

/-- So the last region projects the third layer's activation through the last weight matrix. -/
theorem proj3 : Reg3.G (V3 m ρ) c = Cert.Net.proj (z3 m c) (arg m c main_arg12) := by
  unfold Reg3.G Reg3.Z Reg3.Lu Reg3.Ld Reg3.Yu Reg3.Yd Reg3.Yi
  rw [V3_arg1, V3_arg2, V3_arg12, V3_yu, V3_yd, V3_yi]
  rfl

/-! ## The result -/

/-- At the last boundary the result buffer holds the specification's network of the thirteen launch arguments. -/
theorem result_eq_net : W4 m ρ c (Proc.devRef .tc main_v3)
    = Cert.Net.net (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) :=
  (W4_arr m ρ c 6).trans ((Reg3.final6 (V3 m ρ) c).trans (by rw [proj3]; rfl))

end Cert.KernelIdeal.Chain

end
-- ==== Proof.RefNet.lean ====
/-
  The reference program computes the network of the specification.

  Its stages are three layers of feature projections, Laplacian propagations, sums and `tanh`, one more
  projection, and the row normalisation. Every 128-feature product is one record of dimension numbers and every
  Laplacian product another, so two lemmas read all sixteen products as the specification's sums; the sums of three
  messages under `tanh` are the specification's nonlinearity entry by entry; the tail is read at an index.
-/
import proofs.«173045_g29257317220559_cont_9to1_639_3_alg».proof.Proof.Gen.ReferenceIdeal.Read
import proofs.«173045_g29257317220559_cont_9to1_639_3_alg».proof.Proof.Spec

noncomputable section

namespace Cert.ReferenceIdeal.RefNet

open Cert.ReferenceIdeal Cert.ReferenceIdeal.Gen Cert.ReferenceIdeal.Read Idealize.ShloMosaic Idealize.ShloMosaic.TcCoe Idealize.SL.Sem Idealize.ShloMosaic.StableHlo

/-- Features, a Laplacian, a weight matrix, as arrays of extended reals. -/
abbrev VNF := (⟨S10000x128, .f32⟩ : BufTy).Contents (Elt Ideal)
abbrev VNN := (⟨S10000x10000, .f32⟩ : BufTy).Contents (Elt Ideal)
abbrev VFF := (⟨S128x128, .f32⟩ : BufTy).Contents (Elt Ideal)

/-! ## A feature projection -/

/-- The left operand of a projection is read at (row of `i`, `k`). -/
theorem lidx_proj (i : S10000x128.Idx) (k : Fin 128) :
    lidx_main_v0 i k = ValueIdx.ix2 (Cert.Net.row i) k :=
  funext fun a => Fin.ext (by match a with | ⟨0, _⟩ => rfl | ⟨1, _⟩ => rfl)

/-- The right operand of a projection is read at (`k`, column of `i`). -/
theorem ridx_proj (i : S10000x128.Idx) (k : Fin 128) :
    ridx_main_v0 i k = ValueIdx.ix2 k (Cert.Net.col i) :=
  funext fun a => Fin.ext (by match a with | ⟨0, _⟩ => rfl | ⟨1, _⟩ => rfl)

/-- Every product of features with a 128 × 128 weight matrix is the specification's projection. -/
theorem dot_proj (A : VNF) (W : VFF) :
    Host.dotGeneral (F := Ideal) (φ₁ := .f32) (φ₂ := .f32) dot_S10000x128_S128x128_S10000x128_1_0_0_1_n_n none A W = Cert.Net.proj A W := by
  funext i
  refine (val_main_v0_apply A W i).trans ?_
  show _ = ∑ k : Fin 128, A (ValueIdx.ix2 (Cert.Net.row i) k) * W (ValueIdx.ix2 k (Cert.Net.col i))
  refine Finset.sum_congr rfl fun k _ => ?_
  rw [lidx_proj, ridx_proj]

/-! ## A propagation through a Laplacian -/

/-- Every product of a Laplacian with features is the specification's propagation. -/
theorem dot_prop (L : VNN) (Y : VNF) :
    Host.dotGeneral (F := Ideal) (φ₁ := .f32) (φ₂ := .f32) dot_S10000x10000_S10000x128_S10000x128_1_0_0_1_n_n none L Y = Cert.Net.prop L Y := by
  funext i
  show _ = ∑ k : Fin 10000, L (ValueIdx.ix2 (Cert.Net.row i) k) * Y (ValueIdx.ix2 k (Cert.Net.col i))
  simp only [Host.dotGeneral]
  rw [Ideal.dotGeneral_apply, ← Equiv.sum_comp (ValueIdx.contrEquiv1 dot_S10000x10000_S10000x128_S10000x128_1_0_0_1_n_n 10000 rfl rfl).symm]
  refine Finset.sum_congr rfl fun k _ => ?_
  have hk := ValueIdx.contrEquiv1_symm_val dot_S10000x10000_S10000x128_S10000x128_1_0_0_1_n_n 10000 rfl rfl k
  have el : dot_S10000x10000_S10000x128_S10000x128_1_0_0_1_n_n.lhsIdx i ((ValueIdx.contrEquiv1 dot_S10000x10000_S10000x128_S10000x128_1_0_0_1_n_n 10000 rfl rfl).symm k) = ValueIdx.ix2 (Cert.Net.row i) k := funext fun a => Fin.ext (by
    match a with
    | ⟨0, _⟩ => exact lhs_main_v1_0 _ _
    | ⟨1, _⟩ => exact (lhs_main_v1_1 _ _).trans hk)
  have er : dot_S10000x10000_S10000x128_S10000x128_1_0_0_1_n_n.rhsIdx i ((ValueIdx.contrEquiv1 dot_S10000x10000_S10000x128_S10000x128_1_0_0_1_n_n 10000 rfl rfl).symm k) = ValueIdx.ix2 k (Cert.Net.col i) := funext fun a => Fin.ext (by
    match a with
    | ⟨0, _⟩ => exact (rhs_main_v1_0 _ _).trans hk
    | ⟨1, _⟩ => exact rhs_main_v1_1 _ _)
  rw [el, er]

/-! ## The nonlinearity -/

/-- The `tanh` of the sum of three messages is the specification's nonlinearity. -/
theorem tanh_add3 (P Q S : VNF) :
    Host.tanh (F := Ideal) (φ := .f32) (addf (F := Ideal) (φ := .f32) (addf (F := Ideal) (φ := .f32) P Q) S) = Cert.Net.act P Q S := by
  funext i
  rfl

/-! ## The three layers and the last projection -/

/-- The first layer, from the input features. -/
theorem layer1 (x0 : VNF) (x1 x2 : VNN) (x3 x4 x5 : VFF) :
    val_main_v7 (F := Ideal) x0 x1 x2 x3 x4 x5 = Cert.Net.layer x1 x2 x0 x3 x4 x5 := by
  unfold val_main_v7 val_main_v6 val_main_v5 val_main_v4 val_main_v3 val_main_v2 val_main_v1 val_main_v0
  simp only [dot_proj, dot_prop, tanh_add3]
  rfl

/-- The second layer, from the first layer's features. -/
theorem layer2 (x0 : VNF) (x1 x2 : VNN) (x3 x4 x5 x6 x7 x8 : VFF) :
    val_main_v15 (F := Ideal) x0 x1 x2 x3 x4 x5 x6 x7 x8
      = Cert.Net.layer x1 x2 (val_main_v7 (F := Ideal) x0 x1 x2 x3 x4 x5) x6 x7 x8 := by
  unfold val_main_v15 val_main_v14 val_main_v13 val_main_v12 val_main_v11 val_main_v10 val_main_v9 val_main_v8
  simp only [dot_proj, dot_prop, tanh_add3]
  rfl

/-- The third layer, from the second layer's features. -/
theorem layer3 (x0 : VNF) (x1 x2 : VNN) (x3 x4 x5 x6 x7 x8 x9 x10 x11 : VFF) :
    val_main_v23 (F := Ideal) x0 x1 x2 x3 x4 x5 x6 x7 x8 x9 x10 x11
      = Cert.Net.layer x1 x2 (val_main_v15 (F := Ideal) x0 x1 x2 x3 x4 x5 x6 x7 x8) x9 x10 x11 := by
  unfold val_main_v23 val_main_v22 val_main_v21 val_main_v20 val_main_v19 val_main_v18 val_main_v17 val_main_v16
  simp only [dot_proj, dot_prop, tanh_add3]
  rfl

/-- The last projection, of the third layer's features. -/
theorem last_proj (x0 : VNF) (x1 x2 : VNN) (x3 x4 x5 x6 x7 x8 x9 x10 x11 x12 : VFF) :
    val_main_v24 (F := Ideal) x0 x1 x2 x3 x4 x5 x6 x7 x8 x9 x10 x11 x12
      = Cert.Net.proj (val_main_v23 (F := Ideal) x0 x1 x2 x3 x4 x5 x6 x7 x8 x9 x10 x11) x12 := by
  unfold val_main_v24
  exact dot_proj _ _

/-! ## The row normalisation -/

/-- The norm of a row is summed over (row of `i`, `k`). -/
theorem idx_norm (i : S10000x128.Idx) (k : Fin 128) :
    idx_main_call0_v1 (idx_main_call0_v2 (idx_main_v28 i)) k = ValueIdx.ix2 (Cert.Net.row i) k :=
  funext fun a => Fin.ext (by match a with | ⟨0, _⟩ => rfl | ⟨1, _⟩ => rfl)

/-- The stages after the last projection are the specification's tail of it. -/
theorem tail_eq (x0 : VNF) (x1 x2 : VNN) (x3 x4 x5 x6 x7 x8 x9 x10 x11 x12 : VFF) :
    val_main_v30 (F := Ideal) x0 x1 x2 x3 x4 x5 x6 x7 x8 x9 x10 x11 x12
      = Cert.Net.tail (val_main_v24 (F := Ideal) x0 x1 x2 x3 x4 x5 x6 x7 x8 x9 x10 x11 x12) := by
  funext i
  simp only [val_main_v30_apply, val_main_v29_apply, val_main_v28_apply, val_main_v27_apply, val_main_v26_apply,
    val_main_cst_apply, val_main_v25_apply, val_main_call0_v2_apply, val_main_call0_v1_apply,
    val_main_call0_cst_apply, val_main_call0_v0_apply]
  generalize val_main_v24 (F := Ideal) x0 x1 x2 x3 x4 x5 x6 x7 x8 x9 x10 x11 x12 = g
  simp only [Ideal.hostUnary_tanh_def, Ideal.hostDivf_def, Ideal.maximumf_def, Ideal.hostUnary_sqrt_def,
    Ideal.mulf_def, Ideal.ofBits_def, Ideal.ofBits_zero_f32, zero_add, idx_norm]
  rfl

/-! ## The reference is the network -/

/-- The last stage, as a function of the thirteen arguments, is the specification's network. -/
theorem val_eq_net (x0 : VNF) (x1 x2 : VNN) (x3 x4 x5 x6 x7 x8 x9 x10 x11 x12 : VFF) :
    val_main_v30 (F := Ideal) x0 x1 x2 x3 x4 x5 x6 x7 x8 x9 x10 x11 x12 = Cert.Net.net x0 x1 x2 x3 x4 x5 x6 x7 x8 x9 x10 x11 x12 := by
  rw [tail_eq, last_proj, layer3, layer2, layer1]
  rfl

/-- The reference's result buffer holds the specification's network of the thirteen argument buffers. -/
theorem res_eq_net (m : (ℓ : Loc nD τ sig) → Buf (Elt Ideal) ℓ) (c : Dev nD) :
    Cert.ReferenceIdeal.Value.res_main_v30 (F := Ideal) m c
      = Cert.Net.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  rw [val_main_v30_eq]
  exact val_eq_net _ _ _ _ _ _ _ _ _ _ _ _ _

end Cert.ReferenceIdeal.RefNet

end
-- ==== Proof.lean ====
/-
  Equivalence, over the extended reals, of a simplicial message-passing network computed by four pipelined kernels
  with its array-level reference: three layers `z ↦ tanh (L_u · (z · Wu) + L_d · (z · Wd) + z · Wi)` on 10000 × 128
  features with two 10000 × 10000 Laplacians, a last projection, and each row divided by its Euclidean norm floored
  at ε, through `tanh`.

  The kernels only tile the rows: a grid point handles 200 rows and contracts every product over its whole inner
  axis, so each kernel's output array is one whole-array function of its input arrays (a product into a zero
  accumulator is the plain sum over the contracted index; a row's norm needs that row alone), and the regions in a row
  compose to the specification's network (Spec). The reference's operations are the same sums, read one operation at
  a time (RefNet). No law beyond "the same sum" joins the two sides, so the inputs' finiteness is never used.

  Spec — the network, index by index.  Payload — the kernel bodies at one entry of a block.  Region0 … Region3 — each
  region's output arrays as functions of the arrays it was entered with.  Chain — the boundaries between regions
  followed back to the launch.  ResultRun — the four regions' run with the result buffer named.  RefNet — the
  reference's run term is the network.  Here: the kernel's run re-posted at the network, and the five claims.
-/
import proofs.«173045_g29257317220559_cont_9to1_639_3_alg».proof.Defs
import proofs.«173045_g29257317220559_cont_9to1_639_3_alg».proof.Proof.Gen.Kernel
import proofs.«173045_g29257317220559_cont_9to1_639_3_alg».proof.Proof.Gen.Kernel.Frame
import proofs.«173045_g29257317220559_cont_9to1_639_3_alg».proof.Proof.Gen.KernelIdeal
import proofs.«173045_g29257317220559_cont_9to1_639_3_alg».proof.Proof.Gen.KernelIdeal.Frame
import proofs.«173045_g29257317220559_cont_9to1_639_3_alg».proof.Proof.Gen.ReferenceIdeal
import proofs.«173045_g29257317220559_cont_9to1_639_3_alg».proof.Proof.Gen.ReferenceIdeal.Run
import proofs.«173045_g29257317220559_cont_9to1_639_3_alg».proof.Proof.Gen.ReferenceIdeal.Read
import proofs.«173045_g29257317220559_cont_9to1_639_3_alg».proof.Proof.Gen.Pre_finite_inputs
import proofs.«173045_g29257317220559_cont_9to1_639_3_alg».proof.Proof.ResultRun
import proofs.«173045_g29257317220559_cont_9to1_639_3_alg».proof.Proof.Chain
import proofs.«173045_g29257317220559_cont_9to1_639_3_alg».proof.Proof.RefNet
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Every weakly fair execution of the four kernels ends with the result array at the network of the thirteen
    arguments and the arguments as launched: the run with the result named, and the boundaries followed back. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3) = Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono
    (fun r h c => ⟨(h c).1.trans (Cert.KernelIdeal.Chain.result_eq_net m ρ c), (h c).2⟩)
    (Cert.KernelIdeal.Net.run_result m ρ)

/-- From memories agreeing on the arguments both programs end at the network of those arguments. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.RefNet.res_eq_net, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
